-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256 : Shape := ⟨3, ![8, 128, 256]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S512x2 : Shape := ⟨2, ![512, 2]⟩
abbrev S2 : Shape := ⟨1, ![2]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S512x2 .f32) (main_arg12 : FVec F S2 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x2 .f32 := Host.absf main_arg11
  let main_cst_20 : FVec F S_ .f32 := constant S_ .f32 0x7F800000#32
  let main_v55 : FVec F S512x2 .f32 := broadcastInDim S512x2 ![] bcast_S_S512x2 main_cst_20
  let main_v56 : IVec S512x2 1 := cmpf .olt main_v54 main_v55
  let main_c_21 : IVec S_ 1 := constantI S_ 1 1#1
  let main_v57 : IVec S_ 1 := (fun x v => Host.reduce IntOp.andi x v reducesTo_S512x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S512x2 .f32) (main_arg12 : FVec F S2 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S1024x512 .f32) (main_arg6 : FVec F S512 .f32) (main_arg7 : FVec F S512x512 .f32) (main_arg8 : FVec F S512 .f32) (main_arg9 : FVec F S512x512 .f32) (main_arg10 : FVec F S512 .f32) (main_arg11 : FVec F S512x2 .f32) (main_arg12 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x128x256 .f32) (main_arg1 : FVec F S256x512 .f32) (main_arg2 : FVec F S512 .f32) (main_arg3 : FVec F S512x512 .f32) (main_arg4 : FVec F S512 .f32) (main_arg5 : FVec F S1024x512 .f32) (main_arg6 : FVec F S512 .f32) (main_arg7 : FVec F S512x512 .f32) (main_arg8 : FVec F S512 .f32) (main_arg9 : FVec F S512x512 .f32) (main_arg10 : FVec F S512 .f32) (main_arg11 : FVec F S512x2 .f32) (main_arg12 : FVec F S2 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S8x128x256 : Shape := ⟨3, ![8, 128, 256]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S512x2 : Shape := ⟨2, ![512, 2]⟩
abbrev S2 : Shape := ⟨1, ![2]⟩
abbrev S8x128x512 : Shape := ⟨3, ![8, 128, 512]⟩
abbrev S1x128x256 : Shape := ⟨3, ![1, 128, 256]⟩
abbrev S1x128x512 : Shape := ⟨3, ![1, 128, 512]⟩
abbrev S128x256 : Shape := ⟨2, ![128, 256]⟩
abbrev S128x512 : Shape := ⟨2, ![128, 512]⟩
abbrev S1x512 : Shape := ⟨2, ![1, 512]⟩
abbrev S8x128x128x2 : Shape := ⟨4, ![8, 128, 128, 2]⟩
abbrev S1x32x512 : Shape := ⟨3, ![1, 32, 512]⟩
abbrev S1x32x128x2 : Shape := ⟨4, ![1, 32, 128, 2]⟩
abbrev S32x512 : Shape := ⟨2, ![32, 512]⟩
abbrev S32x1x512 : Shape := ⟨3, ![32, 1, 512]⟩
abbrev S32x128x512 : Shape := ⟨3, ![32, 128, 512]⟩
abbrev S4096x512 : Shape := ⟨2, ![4096, 512]⟩
abbrev S4096x2 : Shape := ⟨2, ![4096, 2]⟩
abbrev S1x2 : Shape := ⟨2, ![1, 2]⟩
abbrev S32x128x2 : Shape := ⟨3, ![32, 128, 2]⟩

abbrev nBuf : Space → Nat
  | .hbm => 26
  | .vmem => 25
  | .smem => 0
  | _ => 0

abbrev bufTy : (tb : Table) → Fin (tcTables nBuf tb) → BufTy
  | .hbm, ⟨0, _⟩ => ⟨S8x128x256, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x2, .f32⟩
  | .hbm, ⟨12, _⟩ => ⟨S2, .f32⟩
  | .hbm, ⟨13, _⟩ => ⟨S8x128x256, .bf16⟩
  | .hbm, ⟨14, _⟩ => ⟨S256x512, .bf16⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S8x128x512, .bf16⟩
  | .hbm, ⟨21, _⟩ => ⟨S8x128x512, .bf16⟩
  | .hbm, ⟨22, _⟩ => ⟨S512x512, .bf16⟩
  | .hbm, ⟨23, _⟩ => ⟨S512x512, .bf16⟩
  | .hbm, ⟨24, _⟩ => ⟨S512x2, .bf16⟩
  | .hbm, ⟨25, _⟩ => ⟨S8x128x128x2, .f32⟩
  | .local _ .vmem, ⟨0, _⟩ => ⟨S1x128x256, .bf16⟩
  | .local _ .vmem, ⟨1, _⟩ => ⟨S1x128x256, .bf16⟩
  | .local _ .vmem, ⟨2, _⟩ => ⟨S256x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512x512, .bf16⟩
  | .local _ .vmem, ⟨8, _⟩ => ⟨S512, .f32⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x32x512, .bf16⟩
  | .local _ .vmem, ⟨16, _⟩ => ⟨S1x32x512, .bf16⟩
  | .local _ .vmem, ⟨17, _⟩ => ⟨S512x512, .bf16⟩
  | .local _ .vmem, ⟨18, _⟩ => ⟨S512, .f32⟩
  | .local _ .vmem, ⟨19, _⟩ => ⟨S512x512, .bf16⟩
  | .local _ .vmem, ⟨20, _⟩ => ⟨S512, .f32⟩
  | .local _ .vmem, ⟨21, _⟩ => ⟨S512x2, .bf16⟩
  | .local _ .vmem, ⟨22, _⟩ => ⟨S2, .f32⟩
  | .local _ .vmem, ⟨23, _⟩ => ⟨S1x32x128x2, .f32⟩
  | .local _ .vmem, ⟨24, _⟩ => ⟨S1x32x128x2, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x32x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x2 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x32x128x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  bitsLt_bf16_f32 : FTy.bits .bf16 < FTy.bits .f32
  slices_S1024x512_S512x512_0_0 : S1024x512.Slices ![0, 0] S512x512
  slices_S1024x512_S512x512_512_0 : S1024x512.Slices ![512, 0] S512x512
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  packedbf16_S1x128x512_S1x128x512_0_0_0 : (Rect.unit (s := S1x128x512) ![0, 0, 0] S1x128x512.size inb_S1x128x512_S1x128x512_0_0_0).PackedRows (EltTy.packing .bf16)
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S32x1x512 : S32x512.ShapeCasts S32x1x512
  broadcasts_S32x1x512_S32x128x512 : S32x1x512.Broadcasts S32x128x512
  broadcasts_S1x128x512_S32x128x512 : S1x128x512.Broadcasts S32x128x512
  shapeCasts_S32x128x512_S4096x512 : S32x128x512.ShapeCasts S4096x512
  broadcasts_S1x512_S4096x512 : S1x512.Broadcasts S4096x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  shapeCasts_S4096x2_S32x128x2 : S4096x2.ShapeCasts S32x128x2
  inb_S1x32x128x2_S1x32x128x2_0_0_0_0 : ∀ a, (![0, 0, 0, 0] : Fin 4 → Nat) a + S1x32x128x2.size a ≤ S1x32x128x2.size a
  h_S1x32x128x2 : 0 < S1x32x128x2.numel
  shapeCasts_S1x32x128x2_S32x128x2 : S1x32x128x2.ShapeCasts S32x128x2
  shapeCasts_S32x128x2_S1x32x128x2 : S32x128x2.ShapeCasts S1x32x128x2
  dot_S128x256_S256x512_S128x512_1_0_0_1_n_n_wf : DotDims.WF S128x256 S256x512 S128x512 [1] [0] [0] [1] [] []
  dot_S128x512_S512x512_S128x512_1_0_0_1_n_n_wf : DotDims.WF S128x512 S512x512 S128x512 [1] [0] [0] [1] [] []
  dot_S4096x512_S512x512_S4096x512_1_0_0_1_n_n_wf : DotDims.WF S4096x512 S512x512 S4096x512 [1] [0] [0] [1] [] []
  dot_S4096x512_S512x2_S4096x2_1_0_0_1_n_n_wf : DotDims.WF S4096x512 S512x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S8x128x256.size a
  hwx0_0 : ∀ i : grid0.Coords, EltTy.bits .bf16 = 32 ∨ (Rect.block (s := S8x128x256) S1x128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x512.size a ≤ S8x128x512.size a
  hwx0_8 : ∀ i : grid0.Coords, EltTy.bits .bf16 = 32 ∨ (Rect.block (s := S8x128x512) S1x128x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x512.size a ≤ S8x128x512.size a
  hwx0_9 : ∀ i : grid0.Coords, EltTy.bits .bf16 = 32 ∨ (Rect.block (s := S8x128x512) S1x128x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S8x128x512.size a
  hwx1_0 : ∀ i : grid1.Coords, EltTy.bits .bf16 = 32 ∨ (Rect.block (s := S8x128x512) S1x128x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x512.size a ≤ S8x128x512.size a
  hwx1_1 : ∀ i : grid1.Coords, EltTy.bits .bf16 = 32 ∨ (Rect.block (s := S8x128x512) S1x32x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x2.size a ≤ S512x2.size a
  hwx1_6 : ∀ i : grid1.Coords, EltTy.bits .bf16 = 32 ∨ (Rect.block (s := S512x2) S512x2.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x32x128x2.size a ≤ S8x128x128x2.size a
  hwx1_8 : ∀ i : grid1.Coords, EltTy.bits .f32 = 32 ∨ (Rect.block (s := S8x128x128x2) S1x32x128x2.size (cc1_transform_8 i) (hinb1_8 i)).WholeWords (EltTy.packing .f32)

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x2_S4096x2_1_0_0_1_n_n : DotDims S4096x512 S512x2 S4096x2 where
  lhsContracting := [1]
  rhsContracting := [0]
  lhsNonContracting := [0]
  rhsNonContracting := [1]
  lhsBatch := []
  rhsBatch := []
  wf := dot_S4096x512_S512x2_S4096x2_1_0_0_1_n_n_wf

abbrev win0_0 : Pipeline.Window sig grid0 :=
  Pipeline.Window.ofSpec (Memref.whole main_v0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S1x128x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S1x128x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7_0) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S512x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x32x128x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x128x256 : Shape := ⟨3, ![8, 128, 256]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S512x2 : Shape := ⟨2, ![512, 2]⟩
abbrev S2 : Shape := ⟨1, ![2]⟩
abbrev S1024x256 : Shape := ⟨2, ![1024, 256]⟩
abbrev S1x512 : Shape := ⟨2, ![1, 512]⟩
abbrev S_ : Shape := ⟨0, ![]⟩
abbrev S8x128x512 : Shape := ⟨3, ![8, 128, 512]⟩
abbrev S8x1x128x512 : Shape := ⟨4, ![8, 1, 128, 512]⟩
abbrev S8x128x128x512 : Shape := ⟨4, ![8, 128, 128, 512]⟩
abbrev S8x128x1x512 : Shape := ⟨4, ![8, 128, 1, 512]⟩
abbrev S8x128x128x1024 : Shape := ⟨4, ![8, 128, 128, 1024]⟩
abbrev S131072x1024 : Shape := ⟨2, ![131072, 1024]⟩
abbrev S131072x512 : Shape := ⟨2, ![131072, 512]⟩
abbrev S131072x2 : Shape := ⟨2, ![131072, 2]⟩
abbrev S1x2 : Shape := ⟨2, ![1, 2]⟩
abbrev S8x128x128x2 : Shape := ⟨4, ![8, 128, 128, 2]⟩

abbrev nBuf : Space → Nat
  | .hbm => 61
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x2, .f32⟩
  | .hbm, ⟨12, _⟩ => ⟨S2, .f32⟩
  | .hbm, ⟨13, _⟩ => ⟨S1024x256, .f32⟩
  | .hbm, ⟨14, _⟩ => ⟨S1024x512, .f32⟩
  | .hbm, ⟨15, _⟩ => ⟨S1x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1x512, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S8x128x512, .f32⟩
  | .hbm, ⟨29, _⟩ => ⟨S8x1x128x512, .f32⟩
  | .hbm, ⟨30, _⟩ => ⟨S8x128x128x512, .f32⟩
  | .hbm, ⟨31, _⟩ => ⟨S8x128x1x512, .f32⟩
  | .hbm, ⟨32, _⟩ => ⟨S8x128x128x512, .f32⟩
  | .hbm, ⟨33, _⟩ => ⟨S8x128x128x1024, .f32⟩
  | .hbm, ⟨34, _⟩ => ⟨S131072x1024, .f32⟩
  | .hbm, ⟨35, _⟩ => ⟨S131072x512, .f32⟩
  | .hbm, ⟨36, _⟩ => ⟨S1x512, .f32⟩
  | .hbm, ⟨37, _⟩ => ⟨S131072x512, .f32⟩
  | .hbm, ⟨38, _⟩ => ⟨S131072x512, .f32⟩
  | .hbm, ⟨39, _⟩ => ⟨S_, .f32⟩
  | .hbm, ⟨40, _⟩ => ⟨S131072x512, .f32⟩
  | .hbm, ⟨41, _⟩ => ⟨S131072x512, .f32⟩
  | .hbm, ⟨42, _⟩ => ⟨S131072x512, .f32⟩
  | .hbm, ⟨43, _⟩ => ⟨S1x512, .f32⟩
  | .hbm, ⟨44, _⟩ => ⟨S131072x512, .f32⟩
  | .hbm, ⟨45, _⟩ => ⟨S131072x512, .f32⟩
  | .hbm, ⟨46, _⟩ => ⟨S_, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S1x512, .f32⟩
  | .hbm, ⟨51, _⟩ => ⟨S131072x512, .f32⟩
  | .hbm, ⟨52, _⟩ => ⟨S131072x512, .f32⟩
  | .hbm, ⟨53, _⟩ => ⟨S_, .f32⟩
  | .hbm, ⟨54, _⟩ => ⟨S131072x512, .f32⟩
  | .hbm, ⟨55, _⟩ => ⟨S131072x512, .f32⟩
  | .hbm, ⟨56, _⟩ => ⟨S131072x2, .f32⟩
  | .hbm, ⟨57, _⟩ => ⟨S1x2, .f32⟩
  | .hbm, ⟨58, _⟩ => ⟨S131072x2, .f32⟩
  | .hbm, ⟨59, _⟩ => ⟨S131072x2, .f32⟩
  | .hbm, ⟨60, _⟩ => ⟨S8x128x128x2, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_cst : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call3_cst : Ref sig .tc := ⟨.hbm, 46, rfl⟩
abbrev main_call3_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call4_cst : Ref sig .tc := ⟨.hbm, 53, rfl⟩
abbrev main_call4_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  shapeCasts_S8x128x256_S1024x256 : S8x128x256.ShapeCasts S1024x256
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  shapeCasts_S1024x512_S8x128x512 : S1024x512.ShapeCasts S8x128x512
  bcast_S8x128x512_S8x1x128x512_0_2_3 : S8x128x512.BroadcastsInDim S8x1x128x512 (![0, 2, 3] : Fin 3 → Fin S8x1x128x512.rank)
  bcast_S8x1x128x512_S8x128x128x512_0_1_2_3 : S8x1x128x512.BroadcastsInDim S8x128x128x512 (![0, 1, 2, 3] : Fin 4 → Fin S8x128x128x512.rank)
  bcast_S8x128x512_S8x128x1x512_0_1_3 : S8x128x512.BroadcastsInDim S8x128x1x512 (![0, 1, 3] : Fin 3 → Fin S8x128x1x512.rank)
  bcast_S8x128x1x512_S8x128x128x512_0_1_2_3 : S8x128x1x512.BroadcastsInDim S8x128x128x512 (![0, 1, 2, 3] : Fin 4 → Fin S8x128x128x512.rank)
  concatenates_S8x128x128x512_S8x128x128x512_S8x128x128x1024_d3 : Shape.Concatenates [S8x128x128x512, S8x128x128x512] S8x128x128x1024 3
  shapeCasts_S8x128x128x1024_S131072x1024 : S8x128x128x1024.ShapeCasts S131072x1024
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  shapeCasts_S131072x2_S8x128x128x2 : S131072x2.ShapeCasts S8x128x128x2
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S131072x1024_S1024x512_S131072x512_1_0_0_1_n_n_wf : DotDims.WF S131072x1024 S1024x512 S131072x512 [1] [0] [0] [1] [] []
  dot_S131072x512_S512x512_S131072x512_1_0_0_1_n_n_wf : DotDims.WF S131072x512 S512x512 S131072x512 [1] [0] [0] [1] [] []
  dot_S131072x512_S512x2_S131072x2_1_0_0_1_n_n_wf : DotDims.WF S131072x512 S512x2 S131072x2 [1] [0] [0] [1] [] []

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x2_S131072x2_1_0_0_1_n_n : DotDims S131072x512 S512x2 S131072x2 where
  lhsContracting := [1]
  rhsContracting := [0]
  lhsNonContracting := [0]
  rhsNonContracting := [1]
  lhsBatch := []
  rhsBatch := []
  wf := dot_S131072x512_S512x2_S131072x2_1_0_0_1_n_n_wf

class Facts : Prop extends Facts₀ where

variable [Facts]
-- ==== Proof.KernelRun.lean ====
/-
  The idealized kernel's run with its result named: every weakly fair execution of the program ends, nothing faulting,
  with the result array holding what the second region's write-backs leave (the fold `W4` of the program's segments read
  at the result's buffer) and every argument as launched. It is the library's theorem for a program of several regions
  (`Pipeline.θ_run_regions_kit`) over the generated segments, with the final state's reading kept for the result's
  buffer as well as for the arguments.
-/
import proofs.«103301_j21406117003470_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read off the final state beside the arguments. -/
theorem run_value : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

/-- The result's buffer after the run holds what the second region's write-backs leave in its output window's array. -/
theorem W4_result (c : Dev nD) : W4 m ρ c (Proc.devRef .tc main_v11) = (dat1 (V3 m ρ) c).arrAt 8 cfg1.N :=
  W4_arr m ρ c 8

end Cert.KernelIdeal.RunValue

end
-- ==== Proof.Spec.lean ====
/-
  The edge model as plain mathematics over the extended reals, index by index.

  A dense layer sends a row v (length K) to the row  n ↦ (Σ_k v k · W[k, n]) + b[n];  relu clips a row at zero from below.
  Node features:  feat(b, n) = relu(dense_Wb(relu(dense_Wa(x[b, n, :])))).
  For a pair (i, j) of nodes of batch b the first edge layer's input is the concatenation of feat(b, j) and feat(b, i), so
  its pre-activation is  Σ_{k<512} feat(b,j) k · Wca[k, n] + Σ_{k<512} feat(b,i) k · Wca[512 + k, n] + bca[n].  It is
  written here as  termB(feat(b,i)) n + termA(feat(b,j)) n,  where termA carries the top half of Wca and the bias and
  termB the bottom half; `cat_split` is the law that joins this with the sum over all 1024 columns.
  The rest of the edge network is  tail e = dense_Wo(relu(dense_Wcc(relu(dense_Wcb(relu e))))).
-/
import Idealize.ShloMosaic.PureOps.Ideal
import Idealize.ShloMosaic.Lib.ValueIdx

noncomputable section

namespace Cert.EdgeSpec

open Idealize.ShloMosaic Idealize.ShloMosaic.ValueIdx

/-- The zero the activations are clipped at: the all-zero f32 word, as an extended real. -/
abbrev zero : EReal := Ideal.ofBits .f32 0x00000000#32

/-- A dense layer on one row. -/
def dense {K N : ℕ} (W : (⟨2, ![K, N]⟩ : Shape).Idx → EReal) (b : (⟨1, ![N]⟩ : Shape).Idx → EReal) (v : Fin K → EReal) :
    Fin N → EReal := fun n => (∑ k : Fin K, v k * W (ix2 k n)) + b (ix1 n)

/-- The activation on one row. -/
def relu {N : ℕ} (v : Fin N → EReal) : Fin N → EReal := fun n => max (v n) zero

/-- Rows 0..511 of a 1024-row matrix. -/
def top (W : (⟨2, ![1024, 512]⟩ : Shape).Idx → EReal) : (⟨2, ![512, 512]⟩ : Shape).Idx → EReal :=
  fun i => W (ix2 (Fin.castAdd 512 (i 0 : Fin 512)) (i 1 : Fin 512))

/-- Rows 512..1023 of a 1024-row matrix. -/
def bot (W : (⟨2, ![1024, 512]⟩ : Shape).Idx → EReal) : (⟨2, ![512, 512]⟩ : Shape).Idx → EReal :=
  fun i => W (ix2 (Fin.natAdd 512 (i 0 : Fin 512)) (i 1 : Fin 512))

section
variable (X : (⟨3, ![8, 128, 256]⟩ : Shape).Idx → EReal)
  (WA : (⟨2, ![256, 512]⟩ : Shape).Idx → EReal) (BA : (⟨1, ![512]⟩ : Shape).Idx → EReal)
  (WB : (⟨2, ![512, 512]⟩ : Shape).Idx → EReal) (BB : (⟨1, ![512]⟩ : Shape).Idx → EReal)
  (WCA : (⟨2, ![1024, 512]⟩ : Shape).Idx → EReal) (BCA : (⟨1, ![512]⟩ : Shape).Idx → EReal)
  (WCB : (⟨2, ![512, 512]⟩ : Shape).Idx → EReal) (BCB : (⟨1, ![512]⟩ : Shape).Idx → EReal)
  (WCC : (⟨2, ![512, 512]⟩ : Shape).Idx → EReal) (BCC : (⟨1, ![512]⟩ : Shape).Idx → EReal)
  (WO : (⟨2, ![512, 2]⟩ : Shape).Idx → EReal) (BO : (⟨1, ![2]⟩ : Shape).Idx → EReal)

/-- The features of node `n` of batch `b`. -/
def feat (b : Fin 8) (n : Fin 128) : Fin 512 → EReal :=
  relu (dense WB BB (relu (dense WA BA (fun k => X (ix3 b n k)))))

/-- The share of the first edge layer that depends on the second node of the pair: top half of the weight, and the bias. -/
def termA (f : Fin 512 → EReal) : Fin 512 → EReal := dense (top WCA) BCA f

/-- The share that depends on the first node of the pair: bottom half of the weight, no bias. -/
def termB (f : Fin 512 → EReal) : Fin 512 → EReal := fun n => ∑ k : Fin 512, f k * bot WCA (ix2 k n)

/-- The edge network after its first layer's pre-activation `e`. -/
def tail (e : Fin 512 → EReal) : Fin 2 → EReal :=
  dense WO BO (relu (dense WCC BCC (relu (dense WCB BCB (relu e)))))

/-- The two intermediate arrays the node stage leaves, as whole arrays. -/
def arrA : (⟨3, ![8, 128, 512]⟩ : Shape).Idx → EReal :=
  fun i => termA WCA BCA (feat X WA BA WB BB (i 0 : Fin 8) (i 1 : Fin 128)) (i 2 : Fin 512)
def arrB : (⟨3, ![8, 128, 512]⟩ : Shape).Idx → EReal :=
  fun i => termB WCA (feat X WA BA WB BB (i 0 : Fin 8) (i 1 : Fin 128)) (i 2 : Fin 512)

/-- The edge stage on two given intermediate arrays. -/
def edge (TA TB : (⟨3, ![8, 128, 512]⟩ : Shape).Idx → EReal) : (⟨4, ![8, 128, 128, 2]⟩ : Shape).Idx → EReal :=
  fun i => tail WCB BCB WCC BCC WO BO
    (fun n => TB (ix3 (i 0 : Fin 8) (i 1 : Fin 128) n) + TA (ix3 (i 0 : Fin 8) (i 2 : Fin 128) n)) (i 3 : Fin 2)

/-- The result at pair (i, j) of batch b, component c. -/
def outAt (b : Fin 8) (i j : Fin 128) (c : Fin 2) : EReal :=
  tail WCB BCB WCC BCC WO BO
    (fun n => termB WCA (feat X WA BA WB BB b i) n + termA WCA BCA (feat X WA BA WB BB b j) n) c

/-- The whole result array. -/
def out : (⟨4, ![8, 128, 128, 2]⟩ : Shape).Idx → EReal :=
  fun i => outAt X WA BA WB BB WCA BCA WCB BCB WCC BCC WO BO (i 0 : Fin 8) (i 1 : Fin 128) (i 2 : Fin 128) (i 3 : Fin 2)

/-- The edge stage on the node stage's arrays is the whole result. -/
theorem edge_arr : edge WCB BCB WCC BCC WO BO (arrA X WA BA WB BB WCA BCA) (arrB X WA BA WB BB WCA) =
    out X WA BA WB BB WCA BCA WCB BCB WCC BCC WO BO := rfl

theorem out_ix4 (b : Fin 8) (i j : Fin 128) (c : Fin 2) :
    out X WA BA WB BB WCA BCA WCB BCB WCC BCC WO BO (ix4 b i j c) = outAt X WA BA WB BB WCA BCA WCB BCB WCC BCC WO BO b i j c := rfl

end

/-- Splitting a sum over 1024 columns of a concatenated row into its two halves, and moving the bias: the pre-activation
    of the first edge layer on the concatenation of `fj` and `fi` is `termB fi + termA fj`. Only commutativity and
    associativity of addition are used, so it holds for all extended reals. -/
theorem cat_split (WCA : (⟨2, ![1024, 512]⟩ : Shape).Idx → EReal) (BCA : (⟨1, ![512]⟩ : Shape).Idx → EReal)
    (fj fi : Fin 512 → EReal) (n : Fin 512) :
    (∑ k : Fin 1024, (if h : k.val < 512 then fj ⟨k.val, h⟩ else fi ⟨k.val - 512, by have := k.isLt; omega⟩) * WCA (ix2 k n))
      + BCA (ix1 n) = termB WCA fi n + termA WCA BCA fj n := by
  have hsplit := Fin.sum_univ_add (M := EReal) (a := 512) (b := 512)
    (fun k : Fin (512 + 512) => (if h : k.val < 512 then fj ⟨k.val, h⟩ else fi ⟨k.val - 512, by have := k.isLt; omega⟩) * WCA (ix2 k n))
  have h1 : ∀ k : Fin 512, (if h : (Fin.castAdd 512 k).val < 512 then fj ⟨(Fin.castAdd 512 k).val, h⟩
      else fi ⟨(Fin.castAdd 512 k).val - 512, by have := (Fin.castAdd 512 k).isLt; omega⟩) = fj k := fun k => by
    rw [dif_pos (by simp [Fin.val_castAdd])]
    rfl
  have h2 : ∀ k : Fin 512, (if h : (Fin.natAdd 512 k).val < 512 then fj ⟨(Fin.natAdd 512 k).val, h⟩
      else fi ⟨(Fin.natAdd 512 k).val - 512, by have := (Fin.natAdd 512 k).isLt; omega⟩) = fi k := fun k => by
    rw [dif_neg (by simp [Fin.val_natAdd])]
    exact congrArg fi (Fin.ext (by simp [Fin.val_natAdd]))
  unfold termB termA dense top bot
  refine (congrArg (· + BCA (ix1 n)) hsplit).trans ?_
  simp only [h1, h2]
  rw [add_comm (∑ k : Fin 512, fj k * _) (∑ k : Fin 512, fi k * _), add_assoc]
  rfl

end Cert.EdgeSpec

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«103301_j21406117003470_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibDenseRow.lean ====
/-
  One dense layer of a kernel body read row by row, at the ideal values, for any sizes: a matrix-unit product of an
  [n, K] activation with a [K, w] weight into a zero accumulator, plus a length-w bias repeated along the rows, read at
  entry (p, q) is  (Σ_{k<K} l(p, k) · W(k, q)) + b(q)  — the row p of the activation through the layer. The weight may
  come through a same-shape cast and the bias through the cast [w] -> [1, w]; the element formats are immaterial.
-/
import proofs.«103301_j21406117003470_2_alg».proof.Proof.LibMatmulSum
import Idealize.ShloMosaic.Lib.ValueLayout

noncomputable section

namespace Cert.LibDenseRow

open Idealize.ShloMosaic Idealize.ShloMosaic.ValueIdx Cert.LibMatmulSum

/-- The product into a zero accumulator, the weight read through a same-shape cast. -/
theorem matmul_cast_at {n K w : ℕ} {d : DotDims ⟨2, ![n, K]⟩ ⟨2, ![K, w]⟩ ⟨2, ![n, w]⟩} (hd : Plain d) {φ₁ φ₂ : FTy}
    (l : FVec Ideal ⟨2, ![n, K]⟩ φ₁) (W : FVec Ideal ⟨2, ![K, w]⟩ φ₂)
    (hW : (⟨2, ![K, w]⟩ : Shape).ShapeCasts ⟨2, ![K, w]⟩) (p : Fin n) (q : Fin w) :
    FloatOps.matmul d none l (shapeCast ⟨2, ![K, w]⟩ W hW) (constant ⟨2, ![n, w]⟩ .f32 0x00000000#32) (ix2 p q)
      = ∑ k : Fin K, l (ix2 p k) * W (ix2 k q) := by
  rw [shapeCast_self]
  exact matmul_zero_at hd none l W p q

/-- A length-w bias cast to a row and repeated along n rows, read at (p, q), is the bias at q. -/
theorem bias_at {n w : ℕ} {α : Type} (b : (⟨1, ![w]⟩ : Shape).Idx → α) (hc : (⟨1, ![w]⟩ : Shape).ShapeCasts ⟨2, ![1, w]⟩)
    (hb : (⟨2, ![1, w]⟩ : Shape).Broadcasts ⟨2, ![n, w]⟩) (p : Fin n) (q : Fin w) :
    broadcastTo ⟨2, ![n, w]⟩ (shapeCast ⟨2, ![1, w]⟩ b hc) hb (ix2 p q) = b (ix1 q) :=
  (broadcastTo_1b_ab_apply _ hb p q).trans (shapeCast_a_1a_apply b hc 0 q)

/-- The layer: product plus bias at (p, q). -/
theorem layer_at {n K w : ℕ} {d : DotDims ⟨2, ![n, K]⟩ ⟨2, ![K, w]⟩ ⟨2, ![n, w]⟩} (hd : Plain d) {φ₁ φ₂ : FTy}
    (l : FVec Ideal ⟨2, ![n, K]⟩ φ₁) (W : FVec Ideal ⟨2, ![K, w]⟩ φ₂)
    (hW : (⟨2, ![K, w]⟩ : Shape).ShapeCasts ⟨2, ![K, w]⟩)
    (b : FVec Ideal ⟨1, ![w]⟩ .f32) (hc : (⟨1, ![w]⟩ : Shape).ShapeCasts ⟨2, ![1, w]⟩)
    (hb : (⟨2, ![1, w]⟩ : Shape).Broadcasts ⟨2, ![n, w]⟩) (p : Fin n) (q : Fin w) :
    addf (FloatOps.matmul d none l (shapeCast ⟨2, ![K, w]⟩ W hW) (constant ⟨2, ![n, w]⟩ .f32 0x00000000#32))
        (broadcastTo ⟨2, ![n, w]⟩ (shapeCast ⟨2, ![1, w]⟩ b hc) hb) (ix2 p q)
      = (∑ k : Fin K, l (ix2 p k) * W (ix2 k q)) + b (ix1 q) := by
  show FloatOps.matmul d none l (shapeCast ⟨2, ![K, w]⟩ W hW) (constant ⟨2, ![n, w]⟩ .f32 0x00000000#32) (ix2 p q)
      + broadcastTo ⟨2, ![n, w]⟩ (shapeCast ⟨2, ![1, w]⟩ b hc) hb (ix2 p q) = _
  rw [matmul_cast_at hd, bias_at]

end Cert.LibDenseRow

end
-- ==== Proof.LibMergeAxes.lean ====
/-
  Layout facts around a product whose leading two axes are merged into one, each stated at an index given by
  coordinates, over any element type and any sizes:

  * an `[a, b, c]` array read as `[n, c]` with n = a * b (rows merged), and an `[n, 1]` column read as `[a, b, 1]`
    (rows split again): row r = p * b + q of the merged array is row (p, q) of the other;
  * an `[a, 1, c]` array read as `[a, c]` (a unit middle axis dropped);
  * a `[1, b, 1]` array repeated along a leading axis of length a;
  * at the extended reals, a sum along the middle axis of an `[a, b, c]` array as a sum over its coordinate.
-/
import Idealize.ShloMosaic.Lib.ValueIdx
import Idealize.ShloMosaic.Lib.Pipeline.Value
import Idealize.ShloMosaic.PureOps.Ideal.Laws

noncomputable section

namespace Cert.LibMergeAxes

open Idealize.ShloMosaic Idealize.ShloMosaic.ValueIdx

section Layout
variable {α : Type}

/-- An `[a, b, c]` array cast to `[n, c]` reads, at `(r, u)` with `r = p * b + q`, the operand at `(p, q, u)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (u : Fin c) (r : Fin n)
    (hr : r.val = p.val * b + q.val) : shapeCast ⟨2, ![n, c]⟩ x h (ix2 r u) = x (ix3 p q u) :=
  shapeCast_apply x h _ _ (by
    rw [Shape.rowMajor_val_three, Shape.rowMajor_val_two]
    show (p.val * b + q.val) * c + u.val = r.val * c + u.val
    rw [hr])

/-- An `[n, 1]` column cast to `[a, b, 1]` reads, at `(p, q, z)`, the column's entry in row `r = p * b + q`. -/
theorem shapeCast_n1_ab1_apply {a b n : ℕ} (x : (⟨2, ![n, 1]⟩ : Shape).Idx → α)
    (h : (⟨2, ![n, 1]⟩ : Shape).ShapeCasts ⟨3, ![a, b, 1]⟩) (p : Fin a) (q : Fin b) (z z' : Fin 1) (r : Fin n)
    (hr : r.val = p.val * b + q.val) : shapeCast ⟨3, ![a, b, 1]⟩ x h (ix3 p q z) = x (ix2 r z') :=
  shapeCast_apply x h _ _ (by
    have hz : z.val = 0 := by omega
    have hz' : z'.val = 0 := by omega
    rw [Shape.rowMajor_val_three, Shape.rowMajor_val_two]
    show r.val * 1 + z'.val = (p.val * b + q.val) * 1 + z.val
    rw [hr, hz, hz'])

/-- An `[a, 1, c]` array cast to `[a, c]` reads, at `(p, u)`, the operand at `(p, 0, u)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (u : Fin c) :
    shapeCast ⟨2, ![a, c]⟩ x h (ix2 p u) = x (ix3 p (0 : Fin 1) u) :=
  shapeCast_apply x h _ _ (by
    rw [Shape.rowMajor_val_three, Shape.rowMajor_val_two]
    show (p.val * 1 + 0) * c + u.val = p.val * c + u.val
    rw [Nat.mul_one, Nat.add_zero])

/-- A `[1, b, 1]` array broadcast to `[a, b, 1]` reads, at `(p, q, z)`, the operand at `(0, q, 0)`. -/
theorem broadcastTo_1b1_ab1_apply {a b : ℕ} (x : (⟨3, ![1, b, 1]⟩ : Shape).Idx → α)
    (h : (⟨3, ![1, b, 1]⟩ : Shape).Broadcasts ⟨3, ![a, b, 1]⟩) (p : Fin a) (q : Fin b) (z : Fin 1) :
    broadcastTo ⟨3, ![a, b, 1]⟩ x h (ix3 p q z) = x (ix3 (0 : Fin 1) q (0 : Fin 1)) := by
  refine broadcastTo_apply x h (ix3 p q z) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

end Layout

section MiddleSum

/-- The index a reduction of the middle axis inserts: over `(p, z)` with coordinate `k` it is `(p, k, z)`. -/
theorem lift3_axis1 {n0 n1 n2 : ℕ} (h : (⟨3, ![n0, n1, n2]⟩ : Shape).Reduces [1] ⟨2, ![n0, n2]⟩)
    (p : Fin n0) (z : Fin n2) (k : Fin n1) : h.lift (ix2 p z) k = ix3 p k z :=
  funext fun a => Fin.ext (by
    match a with
    | ⟨0, _⟩ => rfl
    | ⟨1, _⟩ => rfl
    | ⟨2, _⟩ => rfl)

/-- A sum along the middle axis, read at `(p, z)`, is the sum over the middle coordinate. -/
theorem middleSum3_apply {n0 n1 n2 : ℕ} (x : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = FKind.add.neutral .f32 hφ) (p : Fin n0) (z : Fin n2) :
    multiReduction (F := Ideal) .add [1] ⟨2, ![n0, n2]⟩ x 0x00000000#32 h hφ hacc (ix2 p z) = ∑ k : Fin n1, x (ix3 p k z) :=
  (Ideal.multiReduction_add_single x 0x00000000#32 h hφ hacc (ix2 p z)).trans
    (Finset.sum_congr rfl fun k _ => congrArg x (lift3_axis1 h p z k))

end MiddleSum

end Cert.LibMergeAxes

end
-- ==== Proof.LibSplitAxes.lean ====
/-
  Layout steps around a rank-3 array whose leading two axes stand for one merged row axis, each read at an index given
  by coordinates, over any element type and any sizes:

  * an `[a, c]` array read as `[a, 1, c]` (a unit middle axis inserted);
  * an `[n, c]` array read as `[a, b, c]` with n = a * b (rows split): entry (p, q, u) is row r = p * b + q at u
    — the converse of reading `[a, b, c]` as `[n, c]`;
  * an `[a, 1, c]` array repeated along its middle axis to `[a, b, c]`;
  * a `[1, b, c]` array repeated along a leading axis to `[a, b, c]`.
-/
import Idealize.ShloMosaic.Lib.ValueIdx
import Idealize.ShloMosaic.Lib.Pipeline.Value

noncomputable section

namespace Cert.LibSplitAxes

open Idealize.ShloMosaic Idealize.ShloMosaic.ValueIdx

variable {α : Type}

/-- An `[a, c]` array cast to `[a, 1, c]` reads, at `(p, z, u)`, the operand at `(p, u)`. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (u : Fin c) :
    shapeCast ⟨3, ![a, 1, c]⟩ x h (ix3 p z u) = x (ix2 p u) :=
  shapeCast_apply x h _ _ (by
    have hz : z.val = 0 := by omega
    rw [Shape.rowMajor_val_three, Shape.rowMajor_val_two]
    show p.val * c + u.val = (p.val * 1 + z.val) * c + u.val
    rw [hz, Nat.mul_one, Nat.add_zero])

/-- An `[n, c]` array cast to `[a, b, c]` with n = a * b reads, at `(p, q, u)`, the operand's row `r = p * b + q` at `u`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (u : Fin c) (r : Fin n)
    (hr : r.val = p.val * b + q.val) : shapeCast ⟨3, ![a, b, c]⟩ x h (ix3 p q u) = x (ix2 r u) :=
  shapeCast_apply x h _ _ (by
    rw [Shape.rowMajor_val_three, Shape.rowMajor_val_two]
    show r.val * c + u.val = (p.val * b + q.val) * c + u.val
    rw [hr])

/-- An `[a, 1, c]` array repeated along its middle axis to `[a, b, c]` reads, at `(p, q, u)`, the operand at `(p, 0, u)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (u : Fin c) :
    broadcastTo ⟨3, ![a, b, c]⟩ x h (ix3 p q u) = x (ix3 p (0 : Fin 1) u) := by
  refine broadcastTo_apply x h (ix3 p q u) (ix3 p (0 : Fin 1) u) fun ax => ?_
  match ax with
  | ⟨0, _⟩ =>
    show p.val = if a = 1 then 0 else p.val
    split
    · have := p.isLt; omega
    · rfl
  | ⟨1, _⟩ => rfl
  | ⟨2, _⟩ =>
    show u.val = if c = 1 then 0 else u.val
    split
    · have := u.isLt; omega
    · rfl

/-- A `[1, b, c]` array repeated along a leading axis of length a reads, at `(p, q, u)`, the operand at `(0, q, u)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (u : Fin c) :
    broadcastTo ⟨3, ![a, b, c]⟩ x h (ix3 p q u) = x (ix3 (0 : Fin 1) q u) := by
  refine broadcastTo_apply x h (ix3 p q u) (ix3 (0 : Fin 1) q u) fun ax => ?_
  match ax with
  | ⟨0, _⟩ => rfl
  | ⟨1, _⟩ =>
    show q.val = if b = 1 then 0 else q.val
    split
    · have := q.isLt; omega
    · rfl
  | ⟨2, _⟩ =>
    show u.val = if c = 1 then 0 else u.val
    split
    · have := u.isLt; omega
    · rfl

end Cert.LibSplitAxes

end
-- ==== Proof.EdgeBody.lean ====
/-
  The edge kernel's body at one grid point, read at an entry: from the block of the first intermediate array (all 128
  nodes j of the batch), the block of the second (32 nodes i), and the three weight/bias pairs, the value stored at
  (i, j, c) is  tail(fun n => B(i, n) + A(j, n)) c  — the pair's pre-activation through the rest of the edge network.
  The body flattens the 32 × 128 pairs into 4096 rows; row r = i * 128 + j is the pair (i, j).
-/
import proofs.«103301_j21406117003470_2_alg».proof.Proof.Gen.KernelIdeal.Skeleton
import proofs.«103301_j21406117003470_2_alg».proof.Proof.Spec
import proofs.«103301_j21406117003470_2_alg».proof.Proof.LibPlainLists
import proofs.«103301_j21406117003470_2_alg».proof.Proof.LibDenseRow
import proofs.«103301_j21406117003470_2_alg».proof.Proof.LibMergeAxes
import proofs.«103301_j21406117003470_2_alg».proof.Proof.LibSplitAxes
import Idealize.ShloMosaic.Lib.ValueLayout

noncomputable section

namespace Cert.KernelIdeal.EdgeBody

open Cert.KernelIdeal Cert.KernelIdeal.Gen
open Idealize.ShloMosaic Idealize.ShloMosaic.ValueIdx Cert.EdgeSpec Cert.LibMatmulSum

theorem plain_hh : Plain dot_S4096x512_S512x512_S4096x512_1_0_0_1_n_n := Plain.of_lists _ rfl rfl rfl rfl rfl rfl
theorem plain_ho : Plain dot_S4096x512_S512x2_S4096x2_1_0_0_1_n_n := Plain.of_lists _ rfl rfl rfl rfl rfl rfl

variable (x0 : Vec Ideal S1x128x512 .bf16) (x1 : Vec Ideal S1x32x512 .bf16)
  (x2 : Vec Ideal S512x512 .bf16) (x3 : Vec Ideal S512 .f32) (x4 : Vec Ideal S512x512 .bf16) (x5 : Vec Ideal S512 .f32)
  (x6 : Vec Ideal S512x2 .bf16) (x7 : Vec Ideal S2 .f32)

/-- The pair's pre-activation: the second array's row i plus the first array's row j. -/
def pre (i : Fin 32) (j : Fin 128) : Fin 512 → EReal := fun n => x1 (ix3 (0 : Fin 1) i n) + x0 (ix3 (0 : Fin 1) j n)

/-- The flattened, clipped sum of the two broadcast blocks at row r = i * 128 + j. -/
theorem act1_at (i : Fin 32) (j : Fin 128) (r : Fin 4096) (hr : r.val = i.val * 128 + j.val) (n : Fin 512) :
    (truncf .bf16 (shapeCast S4096x512 (maximumf (addf
        (broadcastTo S32x128x512 (shapeCast S32x1x512 (extf .f32 (shapeCast S32x512 x1 shapeCasts_S1x32x512_S32x512) bitsLt_bf16_f32) shapeCasts_S32x512_S32x1x512) broadcasts_S32x1x512_S32x128x512)
        (broadcastTo S32x128x512 (shapeCast S1x128x512 (extf .f32 (shapeCast S128x512 x0 shapeCasts_S1x128x512_S128x512) bitsLt_bf16_f32) shapeCasts_S128x512_S1x128x512) broadcasts_S1x128x512_S32x128x512))
        (broadcast S32x128x512 (Scalar.ofBits .f32 0x00000000#32))) shapeCasts_S32x128x512_S4096x512) bitsLt_bf16_f32
      : FVec Ideal S4096x512 .bf16) (ix2 r n) = relu (pre x0 x1 i j) n := by
  rw [truncf_apply, Cert.LibMergeAxes.shapeCast_abc_nc_apply _ _ i j n r hr, maximumf_apply, addf_apply,
    Cert.LibSplitAxes.broadcastTo_a1c_abc_apply, Cert.LibSplitAxes.broadcastTo_1bc_abc_apply,
    Cert.LibSplitAxes.shapeCast_ac_a1c_apply, shapeCast_ab_1ab_apply, extf_apply, extf_apply,
    shapeCast_1ab_ab_apply, shapeCast_1ab_ab_apply]
  rfl

/-- One clipped dense layer of the 4096 flattened rows, at row r: the activation of the layer on that row. -/
theorem relu_layer_at (l : FVec Ideal S4096x512 .bf16) (W : FVec Ideal S512x512 .bf16) (b : FVec Ideal S512 .f32)
    (r : Fin 4096) (n : Fin 512) :
    (truncf .bf16 (maximumf (addf
        (matmul dot_S4096x512_S512x512_S4096x512_1_0_0_1_n_n none l (shapeCast S512x512 W shapeCasts_S512x512_S512x512) (constant S4096x512 .f32 0x00000000#32))
        (broadcastTo S4096x512 (shapeCast S1x512 b shapeCasts_S512_S1x512) broadcasts_S1x512_S4096x512))
        (broadcast S4096x512 (Scalar.ofBits .f32 0x00000000#32))) bitsLt_bf16_f32 : FVec Ideal S4096x512 .bf16) (ix2 r n)
      = relu (dense W b (fun k => l (ix2 r k))) n := by
  rw [truncf_apply, maximumf_apply, Cert.LibDenseRow.layer_at plain_hh]
  rfl

/-- The last product before its bias, at row r = i * 128 + j: the pair's pre-activation through two clipped layers,
    then summed against the output weight. -/
theorem pay2_at (i : Fin 32) (j : Fin 128) (r : Fin 4096) (hr : r.val = i.val * 128 + j.val) (c : Fin 2) :
    k1_pay2 x0 x1 x2 x3 x4 x5 x6 (ix2 r c)
      = ∑ k : Fin 512, relu (dense x4 x5 (relu (dense x2 x3 (relu (pre x0 x1 i j))))) k * x6 (ix2 k c) := by
  unfold k1_pay2
  refine (Cert.LibDenseRow.matmul_cast_at plain_ho _ x6 _ r c).trans ?_
  refine Finset.sum_congr rfl fun k _ => congrArg (· * x6 (ix2 k c)) ?_
  refine (relu_layer_at _ x4 x5 r k).trans ?_
  refine congrArg (fun v => relu (dense x4 x5 v) k) (funext fun k' => ?_)
  refine (relu_layer_at _ x2 x3 r k').trans ?_
  refine congrArg (fun v => relu (dense x2 x3 v) k') (funext fun k'' => ?_)
  exact act1_at x0 x1 i j r hr k''

/-- The stored value from the last product: its bias added, the 4096 rows split back into 32 × 128 pairs. -/
theorem pay1_at (v37 : FVec Ideal S4096x2 .f32) (u : Fin 1) (i : Fin 32) (j : Fin 128) (r : Fin 4096)
    (hr : r.val = i.val * 128 + j.val) (c : Fin 2) :
    k1_pay1 v37 x7 (ix4 u i j c) = v37 (ix2 r c) + x7 (ix1 c) := by
  unfold k1_pay1
  rw [shapeCast_abc_1abc_apply, Cert.LibSplitAxes.shapeCast_nc_abc_apply _ _ i j c r hr, addf_apply,
    Cert.LibDenseRow.bias_at]

/-- THE BODY AT AN ENTRY: what the point stores at (i, j, c). -/
theorem body_at (u : Fin 1) (i : Fin 32) (j : Fin 128) (c : Fin 2) :
    k1_pay1 (k1_pay2 x0 x1 x2 x3 x4 x5 x6) x7 (ix4 u i j c) = tail x2 x3 x4 x5 x6 x7 (pre x0 x1 i j) c := by
  have hlt : i.val * 128 + j.val < 4096 := by have := i.isLt; have := j.isLt; omega
  rw [pay1_at x7 _ u i j ⟨i.val * 128 + j.val, hlt⟩ rfl c, pay2_at x0 x1 x2 x3 x4 x5 x6 i j ⟨i.val * 128 + j.val, hlt⟩ rfl c]
  rfl

end Cert.KernelIdeal.EdgeBody

end
-- ==== Proof.EdgeFlush.lean ====
/-
  The second region (the edge stage) from blocks to the whole array. Its grid is batch b (8) by tile ib (4) of 32 first
  nodes; the point (b, ib) reads the first intermediate array's block of batch b (all 128 second nodes), the second
  intermediate array's block of batch b and rows ib*32 .. ib*32+31, the weights and biases whole, and writes the result's
  block of batch b, first nodes ib*32 .. ib*32+31. What it writes back is that block of ONE whole-array function
  (`EdgeSpec.edge` of the arrays the region finds), and the 32 blocks tile the result: so the result ends holding it.
-/
import proofs.«103301_j21406117003470_2_alg».proof.Proof.Gen.KernelIdeal.Frame
import proofs.«103301_j21406117003470_2_alg».proof.Proof.EdgeBody
import Idealize.ShloMosaic.Lib.Pipeline.Value

set_option maxRecDepth 16384

noncomputable section

namespace Cert.KernelIdeal.EdgeFlush

open Cert.KernelIdeal Cert.KernelIdeal.Gen
open Idealize.ShloMosaic Idealize.ShloMosaic.TcCoe Idealize.ShloMosaic.ValueIdx Idealize.SL.Sem Cert.EdgeSpec
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps, decided over the 32 grid points: both intermediate arrays are read at the output block's batch, the
    second also at its tile; every other block index is zero; the output's batch and tile stay in range. -/
theorem idx_facts : ∀ t : Fin cfg1.N,
    win1_0.index t (0 : Fin 3) = win1_8.index t (0 : Fin 4) ∧ win1_0.index t (1 : Fin 3) = 0 ∧ win1_0.index t (2 : Fin 3) = 0
    ∧ win1_1.index t (0 : Fin 3) = win1_8.index t (0 : Fin 4) ∧ win1_1.index t (1 : Fin 3) = win1_8.index t (1 : Fin 4)
    ∧ win1_1.index t (2 : Fin 3) = 0
    ∧ win1_8.index t (2 : Fin 4) = 0 ∧ win1_8.index t (3 : Fin 4) = 0
    ∧ win1_8.index t (0 : Fin 4) ≤ 7 ∧ win1_8.index t (1 : Fin 4) ≤ 3 :=
  (by decide +kernel : ∀ t : Fin grid1.N, _)

theorem idx_whole : ∀ t : Fin cfg1.N,
    win1_2.index t (0 : Fin 2) = 0 ∧ win1_2.index t (1 : Fin 2) = 0 ∧ win1_3.index t (0 : Fin 1) = 0
    ∧ win1_4.index t (0 : Fin 2) = 0 ∧ win1_4.index t (1 : Fin 2) = 0 ∧ win1_5.index t (0 : Fin 1) = 0
    ∧ win1_6.index t (0 : Fin 2) = 0 ∧ win1_6.index t (1 : Fin 2) = 0 ∧ win1_7.index t (0 : Fin 1) = 0 :=
  (by decide +kernel : ∀ t : Fin grid1.N, _)

/-- Every (batch, tile) is some point's. -/
theorem idx_onto : ∀ (q0 : Fin 8) (q1 : Fin 4), ∃ t : Fin cfg1.N, win1_8.index t = ![q0.val, q1.val, 0, 0] :=
  (by decide +kernel : ∀ (q0 : Fin 8) (q1 : Fin 4), ∃ t : Fin grid1.N, win1_8.index t = ![q0.val, q1.val, 0, 0])

/-! ## The weights and biases: each window's block is its whole array -/

theorem blk2 (c : Dev nD) (t : Fin cfg1.N) : iblk1 V c 2 t = V c main_v8 := by
  funext y
  show V c main_v8 (((cfg1.win 2).blk t).view.emb y) = V c main_v8 y
  obtain ⟨e0, e1, -⟩ := idx_whole t
  refine congrArg _ (funext fun a => Fin.ext ?_)
  match a with
  | ⟨0, _⟩ => show win1_2.index t (0 : Fin 2) * 512 + 1 * (y 0).val = (y 0).val; omega
  | ⟨1, _⟩ => show win1_2.index t (1 : Fin 2) * 512 + 1 * (y 1).val = (y 1).val; omega

theorem blk3 (c : Dev nD) (t : Fin cfg1.N) : iblk1 V c 3 t = V c main_arg8 := by
  funext y
  show V c main_arg8 (((cfg1.win 3).blk t).view.emb y) = V c main_arg8 y
  obtain ⟨-, -, e2, -⟩ := idx_whole t
  refine congrArg _ (funext fun a => Fin.ext ?_)
  match a with
  | ⟨0, _⟩ => show win1_3.index t (0 : Fin 1) * 512 + 1 * (y 0).val = (y 0).val; omega

theorem blk4 (c : Dev nD) (t : Fin cfg1.N) : iblk1 V c 4 t = V c main_v9 := by
  funext y
  show V c main_v9 (((cfg1.win 4).blk t).view.emb y) = V c main_v9 y
  obtain ⟨-, -, -, e3, e4, -⟩ := idx_whole t
  refine congrArg _ (funext fun a => Fin.ext ?_)
  match a with
  | ⟨0, _⟩ => show win1_4.index t (0 : Fin 2) * 512 + 1 * (y 0).val = (y 0).val; omega
  | ⟨1, _⟩ => show win1_4.index t (1 : Fin 2) * 512 + 1 * (y 1).val = (y 1).val; omega

theorem blk5 (c : Dev nD) (t : Fin cfg1.N) : iblk1 V c 5 t = V c main_arg10 := by
  funext y
  show V c main_arg10 (((cfg1.win 5).blk t).view.emb y) = V c main_arg10 y
  obtain ⟨-, -, -, -, -, e5, -⟩ := idx_whole t
  refine congrArg _ (funext fun a => Fin.ext ?_)
  match a with
  | ⟨0, _⟩ => show win1_5.index t (0 : Fin 1) * 512 + 1 * (y 0).val = (y 0).val; omega

theorem blk6 (c : Dev nD) (t : Fin cfg1.N) : iblk1 V c 6 t = V c main_v10 := by
  funext y
  show V c main_v10 (((cfg1.win 6).blk t).view.emb y) = V c main_v10 y
  obtain ⟨-, -, -, -, -, -, e6, e7, -⟩ := idx_whole t
  refine congrArg _ (funext fun a => Fin.ext ?_)
  match a with
  | ⟨0, _⟩ => show win1_6.index t (0 : Fin 2) * 512 + 1 * (y 0).val = (y 0).val; omega
  | ⟨1, _⟩ => show win1_6.index t (1 : Fin 2) * 2 + 1 * (y 1).val = (y 1).val; omega

theorem blk7 (c : Dev nD) (t : Fin cfg1.N) : iblk1 V c 7 t = V c main_arg12 := by
  funext y
  show V c main_arg12 (((cfg1.win 7).blk t).view.emb y) = V c main_arg12 y
  obtain ⟨-, -, -, -, -, -, -, -, e8⟩ := idx_whole t
  refine congrArg _ (funext fun a => Fin.ext ?_)
  match a with
  | ⟨0, _⟩ => show win1_7.index t (0 : Fin 1) * 2 + 1 * (y 0).val = (y 0).val; omega

/-! ## What a point writes back -/

/-- The body's stored value at (i, j, c') against the edge stage at an entry `e` of the result, for blocks and arrays
    related as the point's windows relate them: the weight and bias blocks are the arrays, the second intermediate
    block's row i is the array's row (e 0, e 1), the first's row j is the array's row (e 0, e 2), and c' is e 3. -/
theorem stored_eq_edge (x0 : Vec Ideal S1x128x512 .bf16) (x1 : Vec Ideal S1x32x512 .bf16)
    (x2 : Vec Ideal S512x512 .bf16) (x3 : Vec Ideal S512 .f32) (x4 : Vec Ideal S512x512 .bf16) (x5 : Vec Ideal S512 .f32)
    (x6 : Vec Ideal S512x2 .bf16) (x7 : Vec Ideal S2 .f32)
    (WCB : S512x512.Idx → EReal) (BCB : S512.Idx → EReal) (WCC : S512x512.Idx → EReal) (BCC : S512.Idx → EReal)
    (WO : S512x2.Idx → EReal) (BO : S2.Idx → EReal) (TA TB : S8x128x512.Idx → EReal)
    (e : S8x128x128x2.Idx) (u : Fin 1) (i : Fin 32) (j : Fin 128) (c' : Fin 2)
    (h2 : x2 = WCB) (h3 : x3 = BCB) (h4 : x4 = WCC) (h5 : x5 = BCC) (h6 : x6 = WO) (h7 : x7 = BO)
    (hB : ∀ n : Fin 512, x1 (ix3 (0 : Fin 1) i n) = TB (ix3 (e 0 : Fin 8) (e 1 : Fin 128) n))
    (hA : ∀ n : Fin 512, x0 (ix3 (0 : Fin 1) j n) = TA (ix3 (e 0 : Fin 8) (e 2 : Fin 128) n))
    (he : (e 3 : Fin 2) = c') :
    k1_pay1 (k1_pay2 x0 x1 x2 x3 x4 x5 x6) x7 (ix4 u i j c') = edge WCB BCB WCC BCC WO BO TA TB e := by
  subst h2 h3 h4 h5 h6 h7
  rw [EdgeBody.body_at]
  unfold edge EdgeBody.pre
  rw [he]
  refine congrArg (fun f => tail x2 x3 x4 x5 x6 x7 f c') (funext fun n => ?_)
  show x1 (ix3 (0 : Fin 1) i n) + x0 (ix3 (0 : Fin 1) j n) = _
  rw [hB n, hA n]

/-- WHAT POINT `t` WRITES BACK is block `t` of the edge stage on the arrays the region finds. -/
theorem flushed_eq (c : Dev nD) (t : Fin cfg1.N) :
    (dat1 V c).flushed 8 t = ((cfg1.win 8).blk t).view.read (Elt Ideal)
      (edge (V c main_v8) (V c main_arg8) (V c main_v9) (V c main_arg10) (V c main_v10) (V c main_arg12)
        (V c main_v7_0) (V c main_v7_1)) := by
  show (cfg1.win 8).cut (grid1.coords t) ((dat1 V c).after 8 t) = _
  rw [after1_8]
  unfold out1_8
  rw [View.canon_unit_zero hz4]
  simp only [View.ld_unit_zero (S := S1x128x512) hz3, View.ld_unit_zero (S := S1x32x512) hz3,
    View.ld_unit_zero (S := S512x512) hz2, View.ld_unit_zero (S := S512) hz1, View.ld_unit_zero (S := S512x2) hz2,
    View.ld_unit_zero (S := S2) hz1]
  funext y
  obtain ⟨u, i, j, c', rfl⟩ : ∃ (u : Fin 1) (i : Fin 32) (j : Fin 128) (c' : Fin 2), y = ix4 u i j c' :=
    ⟨y 0, y 1, y 2, y 3, eq_ix4 y⟩
  obtain ⟨a0, a1, a2, b0, b1, b2, o2, o3, ob, ot⟩ := idx_facts t
  have hu : u.val = 0 := by omega
  refine stored_eq_edge (iblk1 V c 0 t) (iblk1 V c 1 t) (iblk1 V c 2 t) (iblk1 V c 3 t) (iblk1 V c 4 t)
    (iblk1 V c 5 t) (iblk1 V c 6 t) (iblk1 V c 7 t)
    (V c main_v8) (V c main_arg8) (V c main_v9) (V c main_arg10) (V c main_v10) (V c main_arg12)
    (V c main_v7_0) (V c main_v7_1) (((cfg1.win 8).blk t).view.emb (ix4 u i j c')) u i j c'
    (blk2 V c t) (blk3 V c t) (blk4 V c t) (blk5 V c t) (blk6 V c t) (blk7 V c t) (fun n => ?_) (fun n => ?_) ?_
  · show V c main_v7_1 (((cfg1.win 1).blk t).view.emb (ix3 (0 : Fin 1) i n)) = _
    refine congrArg _ (funext fun a => Fin.ext ?_)
    match a with
    | ⟨0, _⟩ => show win1_1.index t (0 : Fin 3) * 1 + 1 * 0 = win1_8.index t (0 : Fin 4) * 1 + 1 * u.val; omega
    | ⟨1, _⟩ => show win1_1.index t (1 : Fin 3) * 32 + 1 * i.val = win1_8.index t (1 : Fin 4) * 32 + 1 * i.val; omega
    | ⟨2, _⟩ => show win1_1.index t (2 : Fin 3) * 512 + 1 * n.val = n.val; omega
  · show V c main_v7_0 (((cfg1.win 0).blk t).view.emb (ix3 (0 : Fin 1) j n)) = _
    refine congrArg _ (funext fun a => Fin.ext ?_)
    match a with
    | ⟨0, _⟩ => show win1_0.index t (0 : Fin 3) * 1 + 1 * 0 = win1_8.index t (0 : Fin 4) * 1 + 1 * u.val; omega
    | ⟨1, _⟩ => show win1_0.index t (1 : Fin 3) * 128 + 1 * j.val = win1_8.index t (2 : Fin 4) * 128 + 1 * j.val; omega
    | ⟨2, _⟩ => show win1_0.index t (2 : Fin 3) * 512 + 1 * n.val = n.val; omega
  · exact Fin.ext (by show win1_8.index t (3 : Fin 4) * 2 + 1 * c'.val = c'.val; omega)

/-! ## The cover -/

theorem mem_blk (t : Fin cfg1.N) (i : S8x128x128x2.Idx) :
    i ∈ ((cfg1.win 8).blk t).view.set ↔ ∀ a : Fin 4, win1_8.index t a * S1x32x128x2.size a ≤ (i a).val
      ∧ (i a).val < win1_8.index t a * S1x32x128x2.size a + S1x32x128x2.size a := by
  show i ∈ ((View.whole main_v11).slice (win1_8.rect t)).set ↔ _
  rw [View.set_slice_whole, Rect.mem_set_unit]
  exact Iff.rfl

/-- Every entry of the result is in some point's block: batch b, first node i is the point (b, i / 32). -/
theorem cover (i : S8x128x128x2.Idx) : ∃ t : Fin cfg1.N, (cfg1.win 8).flush t = true ∧ i ∈ ((cfg1.win 8).blk t).view.set := by
  have h0 : (i 0).val < 8 := (i 0).isLt
  have h1 : (i 1).val < 128 := (i 1).isLt
  have h2 : (i 2).val < 128 := (i 2).isLt
  have h3 : (i 3).val < 2 := (i 3).isLt
  obtain ⟨t, ht⟩ := idx_onto ⟨(i 0).val, h0⟩ ⟨(i 1).val / 32, by omega⟩
  have q0 : win1_8.index t (0 : Fin 4) = (i 0).val := congrFun ht 0
  have q1 : win1_8.index t (1 : Fin 4) = (i 1).val / 32 := congrFun ht 1
  have q2 : win1_8.index t (2 : Fin 4) = 0 := congrFun ht 2
  have q3 : win1_8.index t (3 : Fin 4) = 0 := congrFun ht 3
  refine ⟨t, flush1_8 t, ?_⟩
  rw [mem_blk]
  intro a
  match a with
  | ⟨0, _⟩ => show win1_8.index t (0 : Fin 4) * 1 ≤ (i 0).val ∧ (i 0).val < win1_8.index t (0 : Fin 4) * 1 + 1; omega
  | ⟨1, _⟩ => show win1_8.index t (1 : Fin 4) * 32 ≤ (i 1).val ∧ (i 1).val < win1_8.index t (1 : Fin 4) * 32 + 32; omega
  | ⟨2, _⟩ => show win1_8.index t (2 : Fin 4) * 128 ≤ (i 2).val ∧ (i 2).val < win1_8.index t (2 : Fin 4) * 128 + 128; omega
  | ⟨3, _⟩ => show win1_8.index t (3 : Fin 4) * 2 ≤ (i 3).val ∧ (i 3).val < win1_8.index t (3 : Fin 4) * 2 + 2; omega

/-- THE RESULT ARRAY after the region: the edge stage on the arrays the region finds. -/
theorem final (c : Dev nD) : (dat1 V c).arrAt 8 cfg1.N
    = edge (V c main_v8) (V c main_arg8) (V c main_v9) (V c main_arg10) (V c main_v10) (V c main_arg12)
        (V c main_v7_0) (V c main_v7_1) :=
  (dat1 V c).arrAt_eq_of_cover 8 _ (fun t _ => flushed_eq V c t) cover

end Cert.KernelIdeal.EdgeFlush

end
-- ==== Proof.NodeBody.lean ====
/-
  The node kernel's body at one grid point (one batch), read at an entry: from the batch's 128 × 256 input block and the
  weights, row p of the node features is  feat = relu(dense_Wb(relu(dense_Wa(x[p, :])))),  and the two stored blocks are,
  at (p, q),  dense_{W5, b7}(feat p) q  (the top half's share with the bias) and  Σ_k feat p k · W6(k, q)  (the bottom
  half's share).
-/
import proofs.«103301_j21406117003470_2_alg».proof.Proof.Gen.KernelIdeal.Skeleton
import proofs.«103301_j21406117003470_2_alg».proof.Proof.Spec
import proofs.«103301_j21406117003470_2_alg».proof.Proof.LibPlainLists
import proofs.«103301_j21406117003470_2_alg».proof.Proof.LibDenseRow
import Idealize.ShloMosaic.Lib.ValueLayout

noncomputable section

namespace Cert.KernelIdeal.NodeBody

open Cert.KernelIdeal Cert.KernelIdeal.Gen
open Idealize.ShloMosaic Idealize.ShloMosaic.ValueIdx Cert.EdgeSpec Cert.LibMatmulSum

theorem plain_in : Plain dot_S128x256_S256x512_S128x512_1_0_0_1_n_n := Plain.of_lists _ rfl rfl rfl rfl rfl rfl
theorem plain_hid : Plain dot_S128x512_S512x512_S128x512_1_0_0_1_n_n := Plain.of_lists _ rfl rfl rfl rfl rfl rfl

variable (x0 : Vec Ideal S1x128x256 .bf16) (x1 : Vec Ideal S256x512 .bf16) (x2 : Vec Ideal S512 .f32)
  (x3 : Vec Ideal S512x512 .bf16) (x4 : Vec Ideal S512 .f32) (x5 : Vec Ideal S512x512 .bf16) (x6 : Vec Ideal S512x512 .bf16)
  (x7 : Vec Ideal S512 .f32)

/-- Row p of the node features computed from the block. -/
def frow (p : Fin 128) : Fin 512 → EReal :=
  relu (dense x3 x4 (relu (dense x1 x2 (fun k => x0 (ix3 (0 : Fin 1) p k)))))

/-- The first clipped layer at (p, n). -/
theorem layer1_at (l : FVec Ideal S128x256 .bf16) (W : FVec Ideal S256x512 .bf16) (b : FVec Ideal S512 .f32)
    (p : Fin 128) (n : Fin 512) :
    (truncf .bf16 (maximumf (addf
        (matmul dot_S128x256_S256x512_S128x512_1_0_0_1_n_n none l (shapeCast S256x512 W shapeCasts_S256x512_S256x512) (constant S128x512 .f32 0x00000000#32))
        (broadcastTo S128x512 (shapeCast S1x512 b shapeCasts_S512_S1x512) broadcasts_S1x512_S128x512))
        (broadcast S128x512 (Scalar.ofBits .f32 0x00000000#32))) bitsLt_bf16_f32 : FVec Ideal S128x512 .bf16) (ix2 p n)
      = relu (dense W b (fun k => l (ix2 p k))) n := by
  rw [truncf_apply, maximumf_apply, Cert.LibDenseRow.layer_at plain_in]
  rfl

/-- The second clipped layer at (p, n). -/
theorem layer2_at (l : FVec Ideal S128x512 .bf16) (W : FVec Ideal S512x512 .bf16) (b : FVec Ideal S512 .f32)
    (p : Fin 128) (n : Fin 512) :
    (truncf .bf16 (maximumf (addf
        (matmul dot_S128x512_S512x512_S128x512_1_0_0_1_n_n none l (shapeCast S512x512 W shapeCasts_S512x512_S512x512) (constant S128x512 .f32 0x00000000#32))
        (broadcastTo S128x512 (shapeCast S1x512 b shapeCasts_S512_S1x512) broadcasts_S1x512_S128x512))
        (broadcast S128x512 (Scalar.ofBits .f32 0x00000000#32))) bitsLt_bf16_f32 : FVec Ideal S128x512 .bf16) (ix2 p n)
      = relu (dense W b (fun k => l (ix2 p k))) n := by
  rw [truncf_apply, maximumf_apply, Cert.LibDenseRow.layer_at plain_hid]
  rfl

/-- The node features, as the body computes them, at (p, n). -/
theorem feat_at (p : Fin 128) (n : Fin 512) : k0_pay2 x0 x1 x2 x3 x4 (ix2 p n) = frow x0 x1 x2 x3 x4 p n := by
  unfold k0_pay2
  refine (layer2_at _ x3 x4 p n).trans ?_
  refine congrArg (fun v => relu (dense x3 x4 v) n) (funext fun k => ?_)
  refine (layer1_at _ x1 x2 p k).trans ?_
  refine congrArg (fun v => relu (dense x1 x2 v) k) (funext fun k' => ?_)
  exact shapeCast_1ab_ab_apply x0 shapeCasts_S1x128x256_S128x256 p k'

/-- The first stored block at (p, q): the features through the top half's weight, plus the bias. -/
theorem blockA_at (u : Fin 1) (p : Fin 128) (q : Fin 512) :
    k0_pay4 x0 x1 x2 x3 x4 x5 x7 (ix3 u p q) = dense x5 x7 (frow x0 x1 x2 x3 x4 p) q := by
  unfold k0_pay4
  rw [shapeCast_ab_1ab_apply, truncf_apply, Cert.LibDenseRow.layer_at plain_hid]
  unfold dense
  refine congrArg (· + x7 (ix1 q)) (Finset.sum_congr rfl fun k _ => congrArg (· * x5 (ix2 k q)) ?_)
  exact feat_at x0 x1 x2 x3 x4 p k

/-- The second stored block at (p, q): the features through the bottom half's weight. -/
theorem blockB_at (u : Fin 1) (p : Fin 128) (q : Fin 512) :
    k0_pay1 (k0_pay3 x0 x1 x2 x3 x4 x6) (ix3 u p q) = ∑ k : Fin 512, frow x0 x1 x2 x3 x4 p k * x6 (ix2 k q) := by
  unfold k0_pay1 k0_pay3
  rw [shapeCast_ab_1ab_apply, truncf_apply]
  refine (Cert.LibDenseRow.matmul_cast_at plain_hid _ x6 _ p q).trans ?_
  refine Finset.sum_congr rfl fun k _ => congrArg (· * x6 (ix2 k q)) ?_
  exact feat_at x0 x1 x2 x3 x4 p k

end Cert.KernelIdeal.NodeBody

end
-- ==== Proof.NodeFlush.lean ====
/-
  The first region (the node stage) from blocks to the whole arrays. Its grid is the batch b (8 points); the point b
  reads the input's block of batch b (128 nodes × 256) and the weights and biases whole, and writes block b of each of
  the two intermediate arrays. What it writes back are the blocks of two whole-array functions of the arrays the region
  finds: at (b, n, q), the features of node n of batch b through the first given weight plus the given bias, and the
  same features summed against the second given weight. The 8 blocks tile each array.
-/
import proofs.«103301_j21406117003470_2_alg».proof.Proof.Gen.KernelIdeal.Frame
import proofs.«103301_j21406117003470_2_alg».proof.Proof.NodeBody
import Idealize.ShloMosaic.Lib.Pipeline.Value

set_option maxRecDepth 16384

noncomputable section

namespace Cert.KernelIdeal.NodeFlush

open Cert.KernelIdeal Cert.KernelIdeal.Gen
open Idealize.ShloMosaic Idealize.ShloMosaic.TcCoe Idealize.ShloMosaic.ValueIdx Idealize.SL.Sem Cert.EdgeSpec
open Idealize.ShloMosaic.Pipeline (Dat Cfg Window)

section Spec
variable (X : S8x128x256.Idx → EReal) (WA : S256x512.Idx → EReal) (BA : S512.Idx → EReal)
  (WB : S512x512.Idx → EReal) (BB : S512.Idx → EReal) (W5 W6 : S512x512.Idx → EReal) (B7 : S512.Idx → EReal)

/-- The first intermediate array for a given 512 × 512 weight and bias. -/
def nodeA : S8x128x512.Idx → EReal :=
  fun i => dense W5 B7 (feat X WA BA WB BB (i 0 : Fin 8) (i 1 : Fin 128)) (i 2 : Fin 512)

/-- The second intermediate array for a given 512 × 512 weight. -/
def nodeB : S8x128x512.Idx → EReal :=
  fun i => ∑ k : Fin 512, feat X WA BA WB BB (i 0 : Fin 8) (i 1 : Fin 128) k * W6 (ix2 k (i 2 : Fin 512))

end Spec

/-- With the top half of the 1024-row weight these are the specification's first intermediate array, -/
theorem nodeA_top (X : S8x128x256.Idx → EReal) (WA : S256x512.Idx → EReal) (BA : S512.Idx → EReal)
    (WB : S512x512.Idx → EReal) (BB : S512.Idx → EReal) (WCA : S1024x512.Idx → EReal) (BCA : S512.Idx → EReal) :
    nodeA X WA BA WB BB (top WCA) BCA = arrA X WA BA WB BB WCA BCA := rfl

/-- and with the bottom half its second. -/
theorem nodeB_bot (X : S8x128x256.Idx → EReal) (WA : S256x512.Idx → EReal) (BA : S512.Idx → EReal)
    (WB : S512x512.Idx → EReal) (BB : S512.Idx → EReal) (WCA : S1024x512.Idx → EReal) :
    nodeB X WA BA WB BB (bot WCA) = arrB X WA BA WB BB WCA := rfl

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps, decided over the 8 grid points: the input and both outputs move with the batch; every other block
    index is zero. -/
theorem idx_facts : ∀ t : Fin cfg0.N,
    win0_0.index t (0 : Fin 3) = win0_8.index t (0 : Fin 3) ∧ win0_0.index t (1 : Fin 3) = 0 ∧ win0_0.index t (2 : Fin 3) = 0
    ∧ win0_9.index t (0 : Fin 3) = win0_8.index t (0 : Fin 3) ∧ win0_9.index t (1 : Fin 3) = 0 ∧ win0_9.index t (2 : Fin 3) = 0
    ∧ win0_8.index t (1 : Fin 3) = 0 ∧ win0_8.index t (2 : Fin 3) = 0 ∧ win0_8.index t (0 : Fin 3) ≤ 7 :=
  (by decide +kernel : ∀ t : Fin grid0.N, _)

theorem idx_whole : ∀ t : Fin cfg0.N,
    win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0 ∧ win0_7.index t (0 : Fin 1) = 0 :=
  (by decide +kernel : ∀ t : Fin grid0.N, _)

/-- Every batch is some point's, for either output. -/
theorem idx_onto8 : ∀ q0 : Fin 8, ∃ t : Fin cfg0.N, win0_8.index t = ![q0.val, 0, 0] :=
  (by decide +kernel : ∀ q0 : Fin 8, ∃ t : Fin grid0.N, win0_8.index t = ![q0.val, 0, 0])
theorem idx_onto9 : ∀ q0 : Fin 8, ∃ t : Fin cfg0.N, win0_9.index t = ![q0.val, 0, 0] :=
  (by decide +kernel : ∀ q0 : Fin 8, ∃ t : Fin grid0.N, win0_9.index t = ![q0.val, 0, 0])

/-! ## The weights and biases: each window's block is its whole array -/

theorem blk1 (c : Dev nD) (t : Fin cfg0.N) : iblk0 V c 1 t = V c main_v1 := by
  funext y
  show V c main_v1 (((cfg0.win 1).blk t).view.emb y) = V c main_v1 y
  obtain ⟨e0, e1, -⟩ := idx_whole t
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

theorem blk2 (c : Dev nD) (t : Fin cfg0.N) : iblk0 V c 2 t = V c main_arg2 := by
  funext y
  show V c main_arg2 (((cfg0.win 2).blk t).view.emb y) = V c main_arg2 y
  obtain ⟨-, -, e2, -⟩ := idx_whole t
  refine congrArg _ (funext fun a => Fin.ext ?_)
  match a with
  | ⟨0, _⟩ => show win0_2.index t (0 : Fin 1) * 512 + 1 * (y 0).val = (y 0).val; omega

theorem blk3 (c : Dev nD) (t : Fin cfg0.N) : iblk0 V c 3 t = V c main_v2 := by
  funext y
  show V c main_v2 (((cfg0.win 3).blk t).view.emb y) = V c main_v2 y
  obtain ⟨-, -, -, e3, e4, -⟩ := idx_whole t
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk4 (c : Dev nD) (t : Fin cfg0.N) : iblk0 V c 4 t = V c main_arg4 := by
  funext y
  show V c main_arg4 (((cfg0.win 4).blk t).view.emb y) = V c main_arg4 y
  obtain ⟨-, -, -, -, -, e5, -⟩ := idx_whole t
  refine congrArg _ (funext fun a => Fin.ext ?_)
  match a with
  | ⟨0, _⟩ => show win0_4.index t (0 : Fin 1) * 512 + 1 * (y 0).val = (y 0).val; omega

theorem blk5 (c : Dev nD) (t : Fin cfg0.N) : iblk0 V c 5 t = V c main_v4 := by
  funext y
  show V c main_v4 (((cfg0.win 5).blk t).view.emb y) = V c main_v4 y
  obtain ⟨-, -, -, -, -, -, e6, e7, -⟩ := idx_whole t
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem blk6 (c : Dev nD) (t : Fin cfg0.N) : iblk0 V c 6 t = V c main_v6 := by
  funext y
  show V c main_v6 (((cfg0.win 6).blk t).view.emb y) = V c main_v6 y
  obtain ⟨-, -, -, -, -, -, -, -, e8, e9, -⟩ := idx_whole t
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 512 + 1 * (y 1).val = (y 1).val; omega

theorem blk7 (c : Dev nD) (t : Fin cfg0.N) : iblk0 V c 7 t = V c main_arg6 := by
  funext y
  show V c main_arg6 (((cfg0.win 7).blk t).view.emb y) = V c main_arg6 y
  obtain ⟨-, -, -, -, -, -, -, -, -, -, e10⟩ := idx_whole t
  refine congrArg _ (funext fun a => Fin.ext ?_)
  match a with
  | ⟨0, _⟩ => show win0_7.index t (0 : Fin 1) * 512 + 1 * (y 0).val = (y 0).val; omega

/-! ## What a point writes back -/

section Stored
variable (x0 : Vec Ideal S1x128x256 .bf16) (x1 : Vec Ideal S256x512 .bf16) (x2 : Vec Ideal S512 .f32)
  (x3 : Vec Ideal S512x512 .bf16) (x4 : Vec Ideal S512 .f32) (x5 : Vec Ideal S512x512 .bf16) (x6 : Vec Ideal S512x512 .bf16)
  (x7 : Vec Ideal S512 .f32)
  (X : S8x128x256.Idx → EReal) (WA : S256x512.Idx → EReal) (BA : S512.Idx → EReal)
  (WB : S512x512.Idx → EReal) (BB : S512.Idx → EReal) (W5 W6 : S512x512.Idx → EReal) (B7 : S512.Idx → EReal)
  (e : S8x128x512.Idx) (u : Fin 1) (p : Fin 128) (q : Fin 512)

/-- The block's row p of features is the array's row (e 0, e 1) of features when the input block's row p is that row. -/
theorem frow_eq (h1 : x1 = WA) (h2 : x2 = BA) (h3 : x3 = WB) (h4 : x4 = BB)
    (hX : ∀ k : Fin 256, x0 (ix3 (0 : Fin 1) p k) = X (ix3 (e 0 : Fin 8) (e 1 : Fin 128) k)) :
    NodeBody.frow x0 x1 x2 x3 x4 p = feat X WA BA WB BB (e 0 : Fin 8) (e 1 : Fin 128) := by
  subst h1 h2 h3 h4
  unfold NodeBody.frow feat
  exact congrArg (fun v => relu (dense x3 x4 (relu (dense x1 x2 v)))) (funext hX)

theorem storedA (h1 : x1 = WA) (h2 : x2 = BA) (h3 : x3 = WB) (h4 : x4 = BB) (h5 : x5 = W5) (h7 : x7 = B7)
    (hX : ∀ k : Fin 256, x0 (ix3 (0 : Fin 1) p k) = X (ix3 (e 0 : Fin 8) (e 1 : Fin 128) k)) (he : (e 2 : Fin 512) = q) :
    k0_pay4 x0 x1 x2 x3 x4 x5 x7 (ix3 u p q) = nodeA X WA BA WB BB W5 B7 e := by
  rw [NodeBody.blockA_at, frow_eq x0 x1 x2 x3 x4 X WA BA WB BB e p h1 h2 h3 h4 hX]
  subst h5 h7
  unfold nodeA
  rw [he]

theorem storedB (h1 : x1 = WA) (h2 : x2 = BA) (h3 : x3 = WB) (h4 : x4 = BB) (h6 : x6 = W6)
    (hX : ∀ k : Fin 256, x0 (ix3 (0 : Fin 1) p k) = X (ix3 (e 0 : Fin 8) (e 1 : Fin 128) k)) (he : (e 2 : Fin 512) = q) :
    k0_pay1 (k0_pay3 x0 x1 x2 x3 x4 x6) (ix3 u p q) = nodeB X WA BA WB BB W6 e := by
  rw [NodeBody.blockB_at, frow_eq x0 x1 x2 x3 x4 X WA BA WB BB e p h1 h2 h3 h4 hX]
  subst h6
  unfold nodeB
  rw [he]

end Stored

/-- WHAT POINT `t` WRITES BACK to the first intermediate array is block `t` of `nodeA` of the arrays the region finds. -/
theorem flushed8_eq (c : Dev nD) (t : Fin cfg0.N) :
    (dat0 V c).flushed 8 t = ((cfg0.win 8).blk t).view.read (Elt Ideal)
      (nodeA (V c main_v0) (V c main_v1) (V c main_arg2) (V c main_v2) (V c main_arg4) (V c main_v4) (V c main_arg6)) := by
  show (cfg0.win 8).cut (grid0.coords t) ((dat0 V c).after 8 t) = _
  rw [after0_8]
  unfold out0_8
  rw [View.canon_unit_zero hz3]
  simp only [View.ld_unit_zero (S := S1x128x256) hz3, View.ld_unit_zero (S := S256x512) hz2,
    View.ld_unit_zero (S := S512x512) hz2, View.ld_unit_zero (S := S512) hz1]
  funext y
  obtain ⟨u, p, q, rfl⟩ : ∃ (u : Fin 1) (p : Fin 128) (q : Fin 512), y = ix3 u p q := ⟨y 0, y 1, y 2, eq_ix3 y⟩
  obtain ⟨a0, a1, a2, b0, b1, b2, o1, o2, ob⟩ := idx_facts t
  have hu : u.val = 0 := by omega
  refine storedA (iblk0 V c 0 t) (iblk0 V c 1 t) (iblk0 V c 2 t) (iblk0 V c 3 t) (iblk0 V c 4 t) (iblk0 V c 5 t)
    (iblk0 V c 7 t)
    (V c main_v0) (V c main_v1) (V c main_arg2) (V c main_v2) (V c main_arg4) (V c main_v4) (V c main_arg6)
    (((cfg0.win 8).blk t).view.emb (ix3 u p q)) u p q
    (blk1 V c t) (blk2 V c t) (blk3 V c t) (blk4 V c t) (blk5 V c t) (blk7 V c t) (fun k => ?_) ?_
  · show V c main_v0 (((cfg0.win 0).blk t).view.emb (ix3 (0 : Fin 1) p k)) = _
    refine congrArg _ (funext fun a => Fin.ext ?_)
    match a with
    | ⟨0, _⟩ => show win0_0.index t (0 : Fin 3) * 1 + 1 * 0 = win0_8.index t (0 : Fin 3) * 1 + 1 * u.val; omega
    | ⟨1, _⟩ => show win0_0.index t (1 : Fin 3) * 128 + 1 * p.val = win0_8.index t (1 : Fin 3) * 128 + 1 * p.val; omega
    | ⟨2, _⟩ => show win0_0.index t (2 : Fin 3) * 256 + 1 * k.val = k.val; omega
  · exact Fin.ext (by show win0_8.index t (2 : Fin 3) * 512 + 1 * q.val = q.val; omega)

/-- WHAT POINT `t` WRITES BACK to the second intermediate array is block `t` of `nodeB` of the arrays the region finds. -/
theorem flushed9_eq (c : Dev nD) (t : Fin cfg0.N) :
    (dat0 V c).flushed 9 t = ((cfg0.win 9).blk t).view.read (Elt Ideal)
      (nodeB (V c main_v0) (V c main_v1) (V c main_arg2) (V c main_v2) (V c main_arg4) (V c main_v6)) := by
  show (cfg0.win 9).cut (grid0.coords t) ((dat0 V c).after 9 t) = _
  rw [after0_9]
  unfold out0_9
  rw [View.canon_unit_zero hz3]
  simp only [View.ld_unit_zero (S := S1x128x256) hz3, View.ld_unit_zero (S := S256x512) hz2,
    View.ld_unit_zero (S := S512x512) hz2, View.ld_unit_zero (S := S512) hz1]
  funext y
  obtain ⟨u, p, q, rfl⟩ : ∃ (u : Fin 1) (p : Fin 128) (q : Fin 512), y = ix3 u p q := ⟨y 0, y 1, y 2, eq_ix3 y⟩
  obtain ⟨a0, a1, a2, b0, b1, b2, o1, o2, ob⟩ := idx_facts t
  have hu : u.val = 0 := by omega
  refine storedB (iblk0 V c 0 t) (iblk0 V c 1 t) (iblk0 V c 2 t) (iblk0 V c 3 t) (iblk0 V c 4 t) (iblk0 V c 6 t)
    (V c main_v0) (V c main_v1) (V c main_arg2) (V c main_v2) (V c main_arg4) (V c main_v6)
    (((cfg0.win 9).blk t).view.emb (ix3 u p q)) u p q
    (blk1 V c t) (blk2 V c t) (blk3 V c t) (blk4 V c t) (blk6 V c t) (fun k => ?_) ?_
  · show V c main_v0 (((cfg0.win 0).blk t).view.emb (ix3 (0 : Fin 1) p k)) = _
    refine congrArg _ (funext fun a => Fin.ext ?_)
    match a with
    | ⟨0, _⟩ => show win0_0.index t (0 : Fin 3) * 1 + 1 * 0 = win0_9.index t (0 : Fin 3) * 1 + 1 * u.val; omega
    | ⟨1, _⟩ => show win0_0.index t (1 : Fin 3) * 128 + 1 * p.val = win0_9.index t (1 : Fin 3) * 128 + 1 * p.val; omega
    | ⟨2, _⟩ => show win0_0.index t (2 : Fin 3) * 256 + 1 * k.val = k.val; omega
  · exact Fin.ext (by show win0_9.index t (2 : Fin 3) * 512 + 1 * q.val = q.val; omega)

/-! ## The covers -/

theorem mem_blk8 (t : Fin cfg0.N) (i : S8x128x512.Idx) :
    i ∈ ((cfg0.win 8).blk t).view.set ↔ ∀ a : Fin 3, win0_8.index t a * S1x128x512.size a ≤ (i a).val
      ∧ (i a).val < win0_8.index t a * S1x128x512.size a + S1x128x512.size a := by
  show i ∈ ((View.whole main_v7_0).slice (win0_8.rect t)).set ↔ _
  rw [View.set_slice_whole, Rect.mem_set_unit]
  exact Iff.rfl

theorem mem_blk9 (t : Fin cfg0.N) (i : S8x128x512.Idx) :
    i ∈ ((cfg0.win 9).blk t).view.set ↔ ∀ a : Fin 3, win0_9.index t a * S1x128x512.size a ≤ (i a).val
      ∧ (i a).val < win0_9.index t a * S1x128x512.size a + S1x128x512.size a := by
  show i ∈ ((View.whole main_v7_1).slice (win0_9.rect t)).set ↔ _
  rw [View.set_slice_whole, Rect.mem_set_unit]
  exact Iff.rfl

theorem cover8 (i : S8x128x512.Idx) : ∃ t : Fin cfg0.N, (cfg0.win 8).flush t = true ∧ i ∈ ((cfg0.win 8).blk t).view.set := by
  have h0 : (i 0).val < 8 := (i 0).isLt
  have h1 : (i 1).val < 128 := (i 1).isLt
  have h2 : (i 2).val < 512 := (i 2).isLt
  obtain ⟨t, ht⟩ := idx_onto8 ⟨(i 0).val, h0⟩
  have q0 : win0_8.index t (0 : Fin 3) = (i 0).val := congrFun ht 0
  have q1 : win0_8.index t (1 : Fin 3) = 0 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 512 ≤ (i 2).val ∧ (i 2).val < win0_8.index t (2 : Fin 3) * 512 + 512; omega

theorem cover9 (i : S8x128x512.Idx) : ∃ t : Fin cfg0.N, (cfg0.win 9).flush t = true ∧ i ∈ ((cfg0.win 9).blk t).view.set := by
  have h0 : (i 0).val < 8 := (i 0).isLt
  have h1 : (i 1).val < 128 := (i 1).isLt
  have h2 : (i 2).val < 512 := (i 2).isLt
  obtain ⟨t, ht⟩ := idx_onto9 ⟨(i 0).val, h0⟩
  have q0 : win0_9.index t (0 : Fin 3) = (i 0).val := congrFun ht 0
  have q1 : win0_9.index t (1 : Fin 3) = 0 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 128 ≤ (i 1).val ∧ (i 1).val < win0_9.index t (1 : Fin 3) * 128 + 128; omega
  | ⟨2, _⟩ => show win0_9.index t (2 : Fin 3) * 512 ≤ (i 2).val ∧ (i 2).val < win0_9.index t (2 : Fin 3) * 512 + 512; omega

/-- THE TWO INTERMEDIATE ARRAYS after the region. -/
theorem final8 (c : Dev nD) : (dat0 V c).arrAt 8 cfg0.N
    = nodeA (V c main_v0) (V c main_v1) (V c main_arg2) (V c main_v2) (V c main_arg4) (V c main_v4) (V c main_arg6) :=
  (dat0 V c).arrAt_eq_of_cover 8 _ (fun t _ => flushed8_eq V c t) cover8

theorem final9 (c : Dev nD) : (dat0 V c).arrAt 9 cfg0.N
    = nodeB (V c main_v0) (V c main_v1) (V c main_arg2) (V c main_v2) (V c main_arg4) (V c main_v6) :=
  (dat0 V c).arrAt_eq_of_cover 9 _ (fun t _ => flushed9_eq V c t) cover9

end Cert.KernelIdeal.NodeFlush

end
-- ==== Proof.Link.lean ====
/-
  What the arrays each region of the kernel program finds hold, in terms of the memory at launch.

  Before the first region seven host operations run: three format changes (the identity on extended reals) of the
  input and the two node weights, and two cuts of the 1024-row edge weight — its rows 0..511 and its rows 512..1023 —
  each followed by a format change. Before the second region three more format changes run, of the remaining weights.
  No host operation and no region writes an argument array, so a bias is read as launched; the second region finds the
  first region's two results as its write-backs left them.
-/
import proofs.«103301_j21406117003470_2_alg».proof.Proof.Gen.KernelIdeal.Frame
import proofs.«103301_j21406117003470_2_alg».proof.Proof.Spec
import Idealize.ShloMosaic.Lib.ValueLayout
import Idealize.ShloMosaic.Lib.Pipeline.Value
import Idealize.ShloMosaic.Lib.StableHlo.Run

noncomputable section

namespace Cert.KernelIdeal.Link

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The second region's entry

The arguments the second region reads are left alone by the first stretch of host operations and by the first region. -/

theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W1_arg12 (c : Dev nD) : W1 m ρ c (Proc.devRef .tc main_arg12) = m ((c : Thread nD τ).loc main_arg12) := by
  show StableHlo.after hostOps0 (W0 m ρ c) (Proc.devRef .tc main_arg12) = _
  after_results

/-- The second region finds the first region's first result as its write-backs left it. -/
theorem V3_ta (c : Dev nD) : V3 m ρ c main_v7_0 = (dat0 (V1 m ρ) c).arrAt 8 cfg0.N := by
  show StableHlo.after hostOps1 (W2 m ρ c) (Proc.devRef .tc main_v7_0) = _
  after_results
  exact W2_arr m ρ c 8

/-- The second region finds the first region's second result as its write-backs left it. -/
theorem V3_tb (c : Dev nD) : V3 m ρ c main_v7_1 = (dat0 (V1 m ρ) c).arrAt 9 cfg0.N := by
  show StableHlo.after hostOps1 (W2 m ρ c) (Proc.devRef .tc main_v7_1) = _
  after_results
  exact W2_arr m ρ c 9

/-- The second edge weight: a format change of the argument. -/
theorem V3_wcb (c : Dev nD) : (V3 m ρ c main_v8 : S512x512.Idx → EReal) = m ((c : Thread nD τ).loc main_arg7) := by
  show StableHlo.after hostOps1 (W2 m ρ c) (Proc.devRef .tc main_v8) = _
  after_results
  rw [W2_of_ne m ρ c main_arg7 (by decide), W1_arg7]
  rfl

/-- The second edge bias: the argument. -/
theorem V3_bcb (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide), W1_arg8]

/-- The third edge weight: a format change of the argument. -/
theorem V3_wcc (c : Dev nD) : (V3 m ρ c main_v9 : S512x512.Idx → EReal) = m ((c : Thread nD τ).loc main_arg9) := by
  show StableHlo.after hostOps1 (W2 m ρ c) (Proc.devRef .tc main_v9) = _
  after_results
  rw [W2_of_ne m ρ c main_arg9 (by decide), W1_arg9]
  rfl

/-- The third edge bias: the argument. -/
theorem V3_bcc (c : Dev nD) : V3 m ρ c main_arg10 = m ((c : Thread nD τ).loc main_arg10) := by
  show StableHlo.after hostOps1 (W2 m ρ c) (Proc.devRef .tc main_arg10) = _
  after_results
  rw [W2_of_ne m ρ c main_arg10 (by decide), W1_arg10]

/-- The last weight: a format change of the argument. -/
theorem V3_wo (c : Dev nD) : (V3 m ρ c main_v10 : S512x2.Idx → EReal) = m ((c : Thread nD τ).loc main_arg11) := by
  show StableHlo.after hostOps1 (W2 m ρ c) (Proc.devRef .tc main_v10) = _
  after_results
  rw [W2_of_ne m ρ c main_arg11 (by decide), W1_arg11]
  rfl

/-- The last bias: the argument. -/
theorem V3_bo (c : Dev nD) : V3 m ρ c main_arg12 = m ((c : Thread nD τ).loc main_arg12) := by
  show StableHlo.after hostOps1 (W2 m ρ c) (Proc.devRef .tc main_arg12) = _
  after_results
  rw [W2_of_ne m ρ c main_arg12 (by decide), W1_arg12]

/-! ## The first region's entry -/

/-- The input: a format change of the argument. -/
theorem V1_x (c : Dev nD) : (V1 m ρ c main_v0 : S8x128x256.Idx → EReal) = m ((c : Thread nD τ).loc main_arg0) := by
  show StableHlo.after hostOps0 (W0 m ρ c) (Proc.devRef .tc main_v0) = _
  after_results
  rfl

/-- The first node weight: a format change of the argument. -/
theorem V1_wa (c : Dev nD) : (V1 m ρ c main_v1 : S256x512.Idx → EReal) = m ((c : Thread nD τ).loc main_arg1) := by
  show StableHlo.after hostOps0 (W0 m ρ c) (Proc.devRef .tc main_v1) = _
  after_results
  rfl

/-- The first node bias: the argument. -/
theorem V1_ba (c : Dev nD) : V1 m ρ c main_arg2 = m ((c : Thread nD τ).loc main_arg2) := by
  show StableHlo.after hostOps0 (W0 m ρ c) (Proc.devRef .tc main_arg2) = _
  after_results

/-- The second node weight: a format change of the argument. -/
theorem V1_wb (c : Dev nD) : (V1 m ρ c main_v2 : S512x512.Idx → EReal) = m ((c : Thread nD τ).loc main_arg3) := by
  show StableHlo.after hostOps0 (W0 m ρ c) (Proc.devRef .tc main_v2) = _
  after_results
  rfl

/-- The second node bias: the argument. -/
theorem V1_bb (c : Dev nD) : V1 m ρ c main_arg4 = m ((c : Thread nD τ).loc main_arg4) := by
  show StableHlo.after hostOps0 (W0 m ρ c) (Proc.devRef .tc main_arg4) = _
  after_results

/-- The first edge bias: the argument. -/
theorem V1_bca (c : Dev nD) : V1 m ρ c main_arg6 = m ((c : Thread nD τ).loc main_arg6) := by
  show StableHlo.after hostOps0 (W0 m ρ c) (Proc.devRef .tc main_arg6) = _
  after_results

/-- The top half of the first edge weight: rows 0..511 of the argument, cut and format-changed. -/
theorem V1_top (c : Dev nD) :
    (V1 m ρ c main_v4 : S512x512.Idx → EReal) = Cert.EdgeSpec.top (m ((c : Thread nD τ).loc main_arg5)) := by
  show StableHlo.after hostOps0 (W0 m ρ c) (Proc.devRef .tc main_v4) = _
  after_results
  funext idx
  obtain ⟨p, q, rfl⟩ : ∃ (p q : Fin 512), idx = ix2 p q := ⟨idx 0, idx 1, eq_ix2 idx⟩
  show extractStridedSlice S512x512 ![0, 0] (m ((c : Thread nD τ).loc main_arg5) : S1024x512.Idx → EReal) slices_S1024x512_S512x512_0_0 (ix2 p q)
    = (m ((c : Thread nD τ).loc main_arg5) : S1024x512.Idx → EReal) (ix2 (Fin.castAdd 512 p) q)
  exact slice2_axis0_apply 0 _ _ p q (Fin.castAdd 512 p) (by show p.val = 0 + p.val; omega)

/-- The bottom half of the first edge weight: rows 512..1023 of the argument, cut and format-changed. -/
theorem V1_bot (c : Dev nD) :
    (V1 m ρ c main_v6 : S512x512.Idx → EReal) = Cert.EdgeSpec.bot (m ((c : Thread nD τ).loc main_arg5)) := by
  show StableHlo.after hostOps0 (W0 m ρ c) (Proc.devRef .tc main_v6) = _
  after_results
  funext idx
  obtain ⟨p, q, rfl⟩ : ∃ (p q : Fin 512), idx = ix2 p q := ⟨idx 0, idx 1, eq_ix2 idx⟩
  show extractStridedSlice S512x512 ![512, 0] (m ((c : Thread nD τ).loc main_arg5) : S1024x512.Idx → EReal) slices_S1024x512_S512x512_512_0 (ix2 p q)
    = (m ((c : Thread nD τ).loc main_arg5) : S1024x512.Idx → EReal) (ix2 (Fin.natAdd 512 p) q)
  exact slice2_axis0_apply 512 _ _ p q (Fin.natAdd 512 p) (by show 512 + p.val = 512 + p.val; rfl)

end Cert.KernelIdeal.Link

end
-- ==== Proof.Bridge.lean ====
/-
  The idealized kernel's result array as one function of the argument arrays: the second region leaves the edge stage of
  the arrays it finds; those are the weights and biases as launched (a change of float format is the identity on the
  extended reals) and the two arrays the first region leaves; the first region leaves the node stage of the arrays it
  finds, which are the arguments as launched, the 1024-row weight cut into its top and bottom halves. Put together this
  is the specification's `out` of the thirteen arguments.
-/
import proofs.«103301_j21406117003470_2_alg».proof.Proof.KernelRun
import proofs.«103301_j21406117003470_2_alg».proof.Proof.EdgeFlush
import proofs.«103301_j21406117003470_2_alg».proof.Proof.NodeFlush
import proofs.«103301_j21406117003470_2_alg».proof.Proof.Link

noncomputable section

namespace Cert.KernelIdeal.Bridge

open Cert.KernelIdeal Cert.KernelIdeal.Gen
open Idealize.ShloMosaic Idealize.ShloMosaic.TcCoe Idealize.ShloMosaic.ValueIdx Idealize.SL.Sem Cert.EdgeSpec

/-- The edge stage depends only on its eight arrays. -/
theorem edge_congr {WCB WCB' : S512x512.Idx → EReal} {BCB BCB' : S512.Idx → EReal} {WCC WCC' : S512x512.Idx → EReal}
    {BCC BCC' : S512.Idx → EReal} {WO WO' : S512x2.Idx → EReal} {BO BO' : S2.Idx → EReal}
    {TA TA' TB TB' : S8x128x512.Idx → EReal}
    (h1 : WCB = WCB') (h2 : BCB = BCB') (h3 : WCC = WCC') (h4 : BCC = BCC') (h5 : WO = WO') (h6 : BO = BO')
    (h7 : TA = TA') (h8 : TB = TB') :
    edge WCB BCB WCC BCC WO BO TA TB = edge WCB' BCB' WCC' BCC' WO' BO' TA' TB' := by
  subst h1 h2 h3 h4 h5 h6 h7 h8; rfl

theorem nodeA_congr {X X' : S8x128x256.Idx → EReal} {WA WA' : S256x512.Idx → EReal} {BA BA' : S512.Idx → EReal}
    {WB WB' : S512x512.Idx → EReal} {BB BB' : S512.Idx → EReal} {W5 W5' : S512x512.Idx → EReal} {B7 B7' : S512.Idx → EReal}
    (h0 : X = X') (h1 : WA = WA') (h2 : BA = BA') (h3 : WB = WB') (h4 : BB = BB') (h5 : W5 = W5') (h7 : B7 = B7') :
    NodeFlush.nodeA X WA BA WB BB W5 B7 = NodeFlush.nodeA X' WA' BA' WB' BB' W5' B7' := by
  subst h0 h1 h2 h3 h4 h5 h7; rfl

theorem nodeB_congr {X X' : S8x128x256.Idx → EReal} {WA WA' : S256x512.Idx → EReal} {BA BA' : S512.Idx → EReal}
    {WB WB' : S512x512.Idx → EReal} {BB BB' : S512.Idx → EReal} {W6 W6' : S512x512.Idx → EReal}
    (h0 : X = X') (h1 : WA = WA') (h2 : BA = BA') (h3 : WB = WB') (h4 : BB = BB') (h6 : W6 = W6') :
    NodeFlush.nodeB X WA BA WB BB W6 = NodeFlush.nodeB X' WA' BA' WB' BB' W6' := by
  subst h0 h1 h2 h3 h4 h6; rfl

variable (m : (ℓ : Loc nD τ sig) → Buf (Elt Ideal) ℓ) (ρ : Dev nD → PrngReg)

/-- The first intermediate array the second region finds. -/
theorem found_A (c : Dev nD) : V3 m ρ c main_v7_0
    = arrA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (Link.V3_ta m ρ c).trans <| (NodeFlush.final8 (V1 m ρ) c).trans <|
    (nodeA_congr (Link.V1_x m ρ c) (Link.V1_wa m ρ c) (Link.V1_ba m ρ c) (Link.V1_wb m ρ c) (Link.V1_bb m ρ c)
      (Link.V1_top m ρ c) (Link.V1_bca m ρ c)).trans (NodeFlush.nodeA_top _ _ _ _ _ _ _)

/-- The second intermediate array the second region finds. -/
theorem found_B (c : Dev nD) : V3 m ρ c main_v7_1
    = arrB (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (Link.V3_tb m ρ c).trans <| (NodeFlush.final9 (V1 m ρ) c).trans <|
    (nodeB_congr (Link.V1_x m ρ c) (Link.V1_wa m ρ c) (Link.V1_ba m ρ c) (Link.V1_wb m ρ c) (Link.V1_bb m ρ c)
      (Link.V1_bot m ρ c)).trans (NodeFlush.nodeB_bot _ _ _ _ _ _)

/-- THE KERNEL'S RESULT: what the run leaves in the result's buffer is the specification of the arguments. -/
theorem result_eq (c : Dev nD) : W4 m ρ c (Proc.devRef .tc main_v11)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) :=
  (RunValue.W4_result m ρ c).trans <| (EdgeFlush.final (V3 m ρ) c).trans <|
    (edge_congr (Link.V3_wcb m ρ c) (Link.V3_bcb m ρ c) (Link.V3_wcc m ρ c) (Link.V3_bcc m ρ c) (Link.V3_wo m ρ c)
      (Link.V3_bo m ρ c) (found_A m ρ c) (found_B m ρ c)).trans (edge_arr _ _ _ _ _ _ _ _ _ _ _ _ _)

end Cert.KernelIdeal.Bridge

end
-- ==== Proof.RefValue.lean ====
/-
  The reference program's result, read index by index, is the edge model of the specification.

  The program works on flattened rows: the node stage on the 1024 rows r = b * 128 + n of the input, the edge stage on
  the 131072 rows r = (b * 128 + i) * 128 + j of the pair array. Each stage below is read at such a row given by its
  coordinates, and identified with the corresponding row function of the specification: two dense layers with
  activations give the node features; the concatenated row of the pair (i, j) is the features of node j followed by
  those of node i; the first edge layer on that row is the sum of the two half products (the law `cat_split`); three
  more dense layers give the result; the last reshape sends row r, column c to the entry (b, i, j, c).
-/
import proofs.«103301_j21406117003470_2_alg».proof.Proof.Gen.ReferenceIdeal.Read
import proofs.«103301_j21406117003470_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.EdgeSpec

/-- Two rank-2 indices with the same two coordinates are equal. -/
local macro "idx2" : tactic => `(tactic| (funext a; match a with | ⟨0, _⟩ => rfl | ⟨1, _⟩ => rfl))

section
variable (x0 : (⟨S8x128x256, .f32⟩ : BufTy).Contents (Elt Ideal)) (x1 : (⟨S256x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x2, .f32⟩ : BufTy).Contents (Elt Ideal)) (x12 : (⟨S2, .f32⟩ : BufTy).Contents (Elt Ideal))

/-! ## The node stage -/

/-- The first bias, repeated along the rows. -/
theorem bias3 (r : Fin 1024) (n : Fin 512) : val_main_v3 (F := Ideal) x2 (ix2 r n) = x2 (ix1 n) := by
  rw [val_main_v3_apply, val_main_v2_apply]
  exact congrArg x2 (funext fun a => match a with | ⟨0, _⟩ => rfl)

/-- The second bias, repeated along the rows. -/
theorem bias8 (r : Fin 1024) (n : Fin 512) : val_main_v8 (F := Ideal) x4 (ix2 r n) = x4 (ix1 n) := by
  rw [val_main_v8_apply, val_main_v7_apply]
  exact congrArg x4 (funext fun a => match a with | ⟨0, _⟩ => rfl)

/-- The array the first activation clips at is zero everywhere. -/
theorem zero0 (i : S1024x512.Idx) : val_main_call0_v0 (F := Ideal) i = zero := by
  rw [val_main_call0_v0_apply, val_main_call0_cst_apply]; rfl

/-- The array the second activation clips at is zero everywhere. -/
theorem zero1 (i : S1024x512.Idx) : val_main_call1_v0 (F := Ideal) i = zero := by
  rw [val_main_call1_v0_apply, val_main_call1_cst_apply]; rfl

/-- The first node layer on row r = b * 128 + nd: the dense layer and activation on the input row (b, nd). -/
theorem l5 (r : Fin 1024) (b : Fin 8) (nd : Fin 128) (hr : r.val = b.val * 128 + nd.val) (n : Fin 512) :
    val_main_v5 (F := Ideal) x0 x1 x2 (ix2 r n) = relu (dense x1 x2 (fun k => x0 (ix3 b nd k))) n := by
  show max (val_main_v1 (F := Ideal) x0 x1 (ix2 r n) + val_main_v3 (F := Ideal) x2 (ix2 r n)) (val_main_call0_v0 (F := Ideal) (ix2 r n))
    = max ((∑ k : Fin 256, x0 (ix3 b nd k) * x1 (ix2 k n)) + x2 (ix1 n)) zero
  rw [bias3, zero0, val_main_v1_apply]
  refine congrArg (fun s => max (s + x2 (ix1 n)) zero) (Finset.sum_congr rfl fun k _ => ?_)
  rw [val_main_v0_apply]
  have hb := b.isLt; have hnd := nd.isLt; have hk := k.isLt
  have e1 : idx_main_v0 (lidx_main_v1 (ix2 r n) k) = ix3 b nd k := by
    funext a
    match a with
    | ⟨0, _⟩ => exact Fin.ext (by show (r.val * 256 + k.val) / 32768 = b.val; omega)
    | ⟨1, _⟩ => exact Fin.ext (by show (r.val * 256 + k.val) / 256 % 128 = nd.val; omega)
    | ⟨2, _⟩ => exact Fin.ext (by show (r.val * 256 + k.val) % 256 = k.val; omega)
  have e2 : ridx_main_v1 (ix2 r n) k = ix2 k n := by idx2
  rw [e1, e2]

/-- The second node layer on a row: the dense layer and activation on the first layer's row. -/
theorem l10 (r : Fin 1024) (n : Fin 512) :
    val_main_v10 (F := Ideal) x0 x1 x2 x3 x4 (ix2 r n)
      = relu (dense x3 x4 (fun k => val_main_v5 (F := Ideal) x0 x1 x2 (ix2 r k))) n := by
  show max (val_main_v6 (F := Ideal) x0 x1 x2 x3 (ix2 r n) + val_main_v8 (F := Ideal) x4 (ix2 r n)) (val_main_call1_v0 (F := Ideal) (ix2 r n))
    = max ((∑ k : Fin 512, val_main_v5 (F := Ideal) x0 x1 x2 (ix2 r k) * x3 (ix2 k n)) + x4 (ix1 n)) zero
  rw [bias8, zero1, val_main_v6_apply]
  refine congrArg (fun s => max (s + x4 (ix1 n)) zero) (Finset.sum_congr rfl fun k _ => ?_)
  rw [show lidx_main_v6 (ix2 r n) k = ix2 r k by idx2, show ridx_main_v6 (ix2 r n) k = ix2 k n by idx2]

/-- Row r = b * 128 + nd of the node stage's result is the features of node nd of batch b. -/
theorem node (r : Fin 1024) (b : Fin 8) (nd : Fin 128) (hr : r.val = b.val * 128 + nd.val) (n : Fin 512) :
    val_main_v10 (F := Ideal) x0 x1 x2 x3 x4 (ix2 r n) = feat x0 x1 x2 x3 x4 b nd n := by
  rw [l10]
  have h5 : (fun k => val_main_v5 (F := Ideal) x0 x1 x2 (ix2 r k)) = relu (dense x1 x2 (fun k => x0 (ix3 b nd k))) :=
    funext fun k => l5 x0 x1 x2 r b nd hr k
  rw [h5]
  rfl

/-! ## The pair layout: the two broadcasts, the concatenation, the merged rows -/

/-- The node stage's result as an array [8, 128, 512]: entry (b, nd, n) is the features of node nd of batch b. -/
theorem v11_at (b : Fin 8) (nd : Fin 128) (n : Fin 512) :
    val_main_v11 (F := Ideal) x0 x1 x2 x3 x4 (ix3 b nd n) = feat x0 x1 x2 x3 x4 b nd n := by
  rw [val_main_v11_apply]
  have hb := b.isLt; have hnd := nd.isLt; have hn := n.isLt
  have e : idx_main_v11 (ix3 b nd n) = ix2 (⟨b.val * 128 + nd.val, by omega⟩ : Fin 1024) n := by
    funext a
    match a with
    | ⟨0, _⟩ => exact Fin.ext (by show ((b.val * 128 + nd.val) * 512 + n.val) / 512 = b.val * 128 + nd.val; omega)
    | ⟨1, _⟩ => exact Fin.ext (by show ((b.val * 128 + nd.val) * 512 + n.val) % 512 = n.val; omega)
  rw [e]
  exact node x0 x1 x2 x3 x4 _ b nd rfl n

/-- The first broadcast: entry (b, i, j, k) is the features of the SECOND node j of the pair. -/
theorem v13_at (b : Fin 8) (i j : Fin 128) (k : Fin 512) :
    val_main_v13 (F := Ideal) x0 x1 x2 x3 x4 (ix4 b i j k) = feat x0 x1 x2 x3 x4 b j k := by
  rw [val_main_v13_apply, val_main_v12_apply]
  have e : idx_main_v12 (idx_main_v13 (ix4 b i j k)) = ix3 b j k := by
    funext a; match a with | ⟨0, _⟩ => rfl | ⟨1, _⟩ => rfl | ⟨2, _⟩ => rfl
  rw [e]
  exact v11_at x0 x1 x2 x3 x4 b j k

/-- The second broadcast: entry (b, i, j, k) is the features of the FIRST node i of the pair. -/
theorem v15_at (b : Fin 8) (i j : Fin 128) (k : Fin 512) :
    val_main_v15 (F := Ideal) x0 x1 x2 x3 x4 (ix4 b i j k) = feat x0 x1 x2 x3 x4 b i k := by
  rw [val_main_v15_apply, val_main_v14_apply]
  have e : idx_main_v14 (idx_main_v15 (ix4 b i j k)) = ix3 b i k := by
    funext a; match a with | ⟨0, _⟩ => rfl | ⟨1, _⟩ => rfl | ⟨2, _⟩ => rfl
  rw [e]
  exact v11_at x0 x1 x2 x3 x4 b i k

/-- The concatenation along the last axis at a column below 512: the first piece at that column. -/
theorem v16_left (b : Fin 8) (i j : Fin 128) (k : Fin 1024) (h : k.val < 512) :
    val_main_v16 (F := Ideal) x0 x1 x2 x3 x4 (ix4 b i j k) = val_main_v13 (F := Ideal) x0 x1 x2 x3 x4 (ix4 b i j (⟨k.val, h⟩ : Fin 512)) := by
  unfold val_main_v16
  exact concatenate_pair_apply_left (t := S8x128x128x1024) (s₁ := S8x128x128x512) (s₂ := S8x128x128x512) 3 _ _ concatenates_S8x128x128x512_S8x128x128x512_S8x128x128x1024_d3 (ix4 b i j k) rfl
    (ix4 b i j (⟨k.val, h⟩ : Fin 512))
    (fun a => by match a with | ⟨0, _⟩ => rfl | ⟨1, _⟩ => rfl | ⟨2, _⟩ => rfl | ⟨3, _⟩ => rfl)

/-- The concatenation along the last axis at a column from 512 on: the second piece at that column less 512. -/
theorem v16_right (b : Fin 8) (i j : Fin 128) (k : Fin 1024) (h : ¬ k.val < 512) :
    val_main_v16 (F := Ideal) x0 x1 x2 x3 x4 (ix4 b i j k)
      = val_main_v15 (F := Ideal) x0 x1 x2 x3 x4 (ix4 b i j (⟨k.val - 512, by have := k.isLt; omega⟩ : Fin 512)) := by
  unfold val_main_v16
  exact concatenate_pair_apply_right (t := S8x128x128x1024) (s₁ := S8x128x128x512) (s₂ := S8x128x128x512) 3 _ _ concatenates_S8x128x128x512_S8x128x128x512_S8x128x128x1024_d3 (ix4 b i j k) rfl rfl
    (ix4 b i j (⟨k.val - 512, by have := k.isLt; omega⟩ : Fin 512))
    (fun a ha => by
      match a with
      | ⟨0, _⟩ => rfl
      | ⟨1, _⟩ => rfl
      | ⟨2, _⟩ => rfl
      | ⟨3, _⟩ => exact absurd rfl ha)
    (by show (k.val - 512) + 512 = k.val; omega)

/-- Row r = (b * 128 + i) * 128 + j of the merged pair array: the features of node j, then those of node i. -/
theorem v17_at (r : Fin 131072) (b : Fin 8) (i j : Fin 128) (hr : r.val = (b.val * 128 + i.val) * 128 + j.val) (k : Fin 1024) :
    val_main_v17 (F := Ideal) x0 x1 x2 x3 x4 (ix2 r k)
      = if h : k.val < 512 then feat x0 x1 x2 x3 x4 b j ⟨k.val, h⟩ else feat x0 x1 x2 x3 x4 b i ⟨k.val - 512, by have := k.isLt; omega⟩ := by
  rw [val_main_v17_apply]
  have hb := b.isLt; have hi := i.isLt; have hj := j.isLt; have hk := k.isLt
  have e : idx_main_v17 (ix2 r k) = ix4 b i j k := by
    funext a
    match a with
    | ⟨0, _⟩ => exact Fin.ext (by show (r.val * 1024 + k.val) / 16777216 = b.val; omega)
    | ⟨1, _⟩ => exact Fin.ext (by show (r.val * 1024 + k.val) / 131072 % 128 = i.val; omega)
    | ⟨2, _⟩ => exact Fin.ext (by show (r.val * 1024 + k.val) / 1024 % 128 = j.val; omega)
    | ⟨3, _⟩ => exact Fin.ext (by show (r.val * 1024 + k.val) % 1024 = k.val; omega)
  rw [e]
  by_cases h : k.val < 512
  · rw [dif_pos h, v16_left x0 x1 x2 x3 x4 b i j k h, v13_at]
  · rw [dif_neg h, v16_right x0 x1 x2 x3 x4 b i j k h, v15_at]

/-! ## The edge stage -/

/-- The edge biases, repeated along the rows. -/
theorem bias20 (r : Fin 131072) (n : Fin 512) : val_main_v20 (F := Ideal) x6 (ix2 r n) = x6 (ix1 n) := by
  rw [val_main_v20_apply, val_main_v19_apply]
  exact congrArg x6 (funext fun a => match a with | ⟨0, _⟩ => rfl)
theorem bias25 (r : Fin 131072) (n : Fin 512) : val_main_v25 (F := Ideal) x8 (ix2 r n) = x8 (ix1 n) := by
  rw [val_main_v25_apply, val_main_v24_apply]
  exact congrArg x8 (funext fun a => match a with | ⟨0, _⟩ => rfl)
theorem bias30 (r : Fin 131072) (n : Fin 512) : val_main_v30 (F := Ideal) x10 (ix2 r n) = x10 (ix1 n) := by
  rw [val_main_v30_apply, val_main_v29_apply]
  exact congrArg x10 (funext fun a => match a with | ⟨0, _⟩ => rfl)
theorem bias35 (r : Fin 131072) (c : Fin 2) : val_main_v35 (F := Ideal) x12 (ix2 r c) = x12 (ix1 c) := by
  rw [val_main_v35_apply, val_main_v34_apply]
  exact congrArg x12 (funext fun a => match a with | ⟨0, _⟩ => rfl)

/-- The arrays the edge activations clip at are zero everywhere. -/
theorem zero2 (i : S131072x512.Idx) : val_main_call2_v0 (F := Ideal) i = zero := by
  rw [val_main_call2_v0_apply, val_main_call2_cst_apply]; rfl
theorem zero3 (i : S131072x512.Idx) : val_main_call3_v0 (F := Ideal) i = zero := by
  rw [val_main_call3_v0_apply, val_main_call3_cst_apply]; rfl
theorem zero4 (i : S131072x512.Idx) : val_main_call4_v0 (F := Ideal) i = zero := by
  rw [val_main_call4_v0_apply, val_main_call4_cst_apply]; rfl

/-- The first edge layer before its activation, on row r = (b * 128 + i) * 128 + j: the product of the concatenated
    row with the 1024-row weight, plus the bias, is the two half products of the specification. -/
theorem v21_at (r : Fin 131072) (b : Fin 8) (i j : Fin 128) (hr : r.val = (b.val * 128 + i.val) * 128 + j.val) (n : Fin 512) :
    val_main_v21 (F := Ideal) x0 x1 x2 x3 x4 x5 x6 (ix2 r n)
      = termB x5 (feat x0 x1 x2 x3 x4 b i) n + termA x5 x6 (feat x0 x1 x2 x3 x4 b j) n := by
  show val_main_v18 (F := Ideal) x0 x1 x2 x3 x4 x5 (ix2 r n) + val_main_v20 (F := Ideal) x6 (ix2 r n) = _
  rw [bias20, val_main_v18_apply]
  refine Eq.trans ?_ (cat_split x5 x6 (feat x0 x1 x2 x3 x4 b j) (feat x0 x1 x2 x3 x4 b i) n)
  refine congrArg (fun s => s + x6 (ix1 n)) (Finset.sum_congr rfl fun k _ => ?_)
  rw [show lidx_main_v18 (ix2 r n) k = ix2 r k by idx2, show ridx_main_v18 (ix2 r n) k = ix2 k n by idx2,
    v17_at x0 x1 x2 x3 x4 r b i j hr k]

/-- The first edge activation on a row. -/
theorem l22 (r : Fin 131072) (n : Fin 512) :
    val_main_v22 (F := Ideal) x0 x1 x2 x3 x4 x5 x6 (ix2 r n) = relu (fun m => val_main_v21 (F := Ideal) x0 x1 x2 x3 x4 x5 x6 (ix2 r m)) n := by
  show max (val_main_v21 (F := Ideal) x0 x1 x2 x3 x4 x5 x6 (ix2 r n)) (val_main_call2_v0 (F := Ideal) (ix2 r n))
    = max (val_main_v21 (F := Ideal) x0 x1 x2 x3 x4 x5 x6 (ix2 r n)) zero
  rw [zero2]

/-- The second edge layer on a row: the dense layer and activation on the previous row. -/
theorem l27 (r : Fin 131072) (n : Fin 512) :
    val_main_v27 (F := Ideal) x0 x1 x2 x3 x4 x5 x6 x7 x8 (ix2 r n)
      = relu (dense x7 x8 (fun k => val_main_v22 (F := Ideal) x0 x1 x2 x3 x4 x5 x6 (ix2 r k))) n := by
  show max (val_main_v23 (F := Ideal) x0 x1 x2 x3 x4 x5 x6 x7 (ix2 r n) + val_main_v25 (F := Ideal) x8 (ix2 r n)) (val_main_call3_v0 (F := Ideal) (ix2 r n))
    = max ((∑ k : Fin 512, val_main_v22 (F := Ideal) x0 x1 x2 x3 x4 x5 x6 (ix2 r k) * x7 (ix2 k n)) + x8 (ix1 n)) zero
  rw [bias25, zero3, val_main_v23_apply]
  refine congrArg (fun s => max (s + x8 (ix1 n)) zero) (Finset.sum_congr rfl fun k _ => ?_)
  rw [show lidx_main_v23 (ix2 r n) k = ix2 r k by idx2, show ridx_main_v23 (ix2 r n) k = ix2 k n by idx2]

/-- The third edge layer on a row. -/
theorem l32 (r : Fin 131072) (n : Fin 512) :
    val_main_v32 (F := Ideal) x0 x1 x2 x3 x4 x5 x6 x7 x8 x9 x10 (ix2 r n)
      = relu (dense x9 x10 (fun k => val_main_v27 (F := Ideal) x0 x1 x2 x3 x4 x5 x6 x7 x8 (ix2 r k))) n := by
  show max (val_main_v28 (F := Ideal) x0 x1 x2 x3 x4 x5 x6 x7 x8 x9 (ix2 r n) + val_main_v30 (F := Ideal) x10 (ix2 r n)) (val_main_call4_v0 (F := Ideal) (ix2 r n))
    = max ((∑ k : Fin 512, val_main_v27 (F := Ideal) x0 x1 x2 x3 x4 x5 x6 x7 x8 (ix2 r k) * x9 (ix2 k n)) + x10 (ix1 n)) zero
  rw [bias30, zero4, val_main_v28_apply]
  refine congrArg (fun s => max (s + x10 (ix1 n)) zero) (Finset.sum_congr rfl fun k _ => ?_)
  rw [show lidx_main_v28 (ix2 r n) k = ix2 r k by idx2, show ridx_main_v28 (ix2 r n) k = ix2 k n by idx2]

/-- The last layer on a row: a dense layer, no activation. -/
theorem l36 (r : Fin 131072) (c : Fin 2) :
    val_main_v36 (F := Ideal) x0 x1 x2 x3 x4 x5 x6 x7 x8 x9 x10 x11 x12 (ix2 r c)
      = dense x11 x12 (fun k => val_main_v32 (F := Ideal) x0 x1 x2 x3 x4 x5 x6 x7 x8 x9 x10 (ix2 r k)) c := by
  show val_main_v33 (F := Ideal) x0 x1 x2 x3 x4 x5 x6 x7 x8 x9 x10 x11 (ix2 r c) + val_main_v35 (F := Ideal) x12 (ix2 r c)
    = (∑ k : Fin 512, val_main_v32 (F := Ideal) x0 x1 x2 x3 x4 x5 x6 x7 x8 x9 x10 (ix2 r k) * x11 (ix2 k c)) + x12 (ix1 c)
  rw [bias35, val_main_v33_apply]
  refine congrArg (fun s => s + x12 (ix1 c)) (Finset.sum_congr rfl fun k _ => ?_)
  rw [show lidx_main_v33 (ix2 r c) k = ix2 r k by idx2, show ridx_main_v33 (ix2 r c) k = ix2 k c by idx2]

/-- Row r = (b * 128 + i) * 128 + j of the edge stage's result is the specification's result at the pair (i, j) of batch b. -/
theorem edge_row (r : Fin 131072) (b : Fin 8) (i j : Fin 128) (hr : r.val = (b.val * 128 + i.val) * 128 + j.val) (c : Fin 2) :
    val_main_v36 (F := Ideal) x0 x1 x2 x3 x4 x5 x6 x7 x8 x9 x10 x11 x12 (ix2 r c) = outAt x0 x1 x2 x3 x4 x5 x6 x7 x8 x9 x10 x11 x12 b i j c := by
  have h21 : (fun m => val_main_v21 (F := Ideal) x0 x1 x2 x3 x4 x5 x6 (ix2 r m))
      = fun n => termB x5 (feat x0 x1 x2 x3 x4 b i) n + termA x5 x6 (feat x0 x1 x2 x3 x4 b j) n :=
    funext fun n => v21_at x0 x1 x2 x3 x4 x5 x6 r b i j hr n
  have h22 : (fun k => val_main_v22 (F := Ideal) x0 x1 x2 x3 x4 x5 x6 (ix2 r k))
      = relu (fun n => termB x5 (feat x0 x1 x2 x3 x4 b i) n + termA x5 x6 (feat x0 x1 x2 x3 x4 b j) n) :=
    funext fun n => (l22 x0 x1 x2 x3 x4 x5 x6 r n).trans (by rw [h21])
  have h27 : (fun k => val_main_v27 (F := Ideal) x0 x1 x2 x3 x4 x5 x6 x7 x8 (ix2 r k))
      = relu (dense x7 x8 (relu (fun n => termB x5 (feat x0 x1 x2 x3 x4 b i) n + termA x5 x6 (feat x0 x1 x2 x3 x4 b j) n))) :=
    funext fun n => (l27 x0 x1 x2 x3 x4 x5 x6 x7 x8 r n).trans (by rw [h22])
  have h32 : (fun k => val_main_v32 (F := Ideal) x0 x1 x2 x3 x4 x5 x6 x7 x8 x9 x10 (ix2 r k))
      = relu (dense x9 x10 (relu (dense x7 x8 (relu (fun n => termB x5 (feat x0 x1 x2 x3 x4 b i) n + termA x5 x6 (feat x0 x1 x2 x3 x4 b j) n))))) :=
    funext fun n => (l32 x0 x1 x2 x3 x4 x5 x6 x7 x8 x9 x10 r n).trans (by rw [h27])
  rw [l36, h32]
  rfl

end

/-- The reference's result is the specification's. -/
theorem ref_eq (x0 : (⟨S8x128x256, .f32⟩ : BufTy).Contents (Elt Ideal)) (x1 : (⟨S256x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x2, .f32⟩ : BufTy).Contents (Elt Ideal)) (x12 : (⟨S2, .f32⟩ : BufTy).Contents (Elt Ideal)) :
    Cert.ReferenceIdeal.Read.val_main_v37 (F := Ideal) x0 x1 x2 x3 x4 x5 x6 x7 x8 x9 x10 x11 x12
      = Cert.EdgeSpec.out x0 x1 x2 x3 x4 x5 x6 x7 x8 x9 x10 x11 x12 := by
  funext idx
  obtain ⟨b, i, j, c, rfl⟩ : ∃ (b : Fin 8) (i j : Fin 128) (c : Fin 2), idx = ix4 b i j c := ⟨idx 0, idx 1, idx 2, idx 3, ValueIdx.eq_ix4 idx⟩
  rw [Cert.EdgeSpec.out_ix4, val_main_v37_apply]
  have hb := b.isLt; have hi := i.isLt; have hj := j.isLt; have hc := c.isLt
  have e : idx_main_v37 (ix4 b i j c) = ix2 (⟨(b.val * 128 + i.val) * 128 + j.val, by omega⟩ : Fin 131072) c := by
    funext a
    match a with
    | ⟨0, _⟩ => exact Fin.ext (by show (((b.val * 128 + i.val) * 128 + j.val) * 2 + c.val) / 2 = (b.val * 128 + i.val) * 128 + j.val; omega)
    | ⟨1, _⟩ => exact Fin.ext (by show (((b.val * 128 + i.val) * 128 + j.val) * 2 + c.val) % 2 = c.val; omega)
  rw [e]
  exact edge_row x0 x1 x2 x3 x4 x5 x6 x7 x8 x9 x10 x11 x12 _ b i j rfl c

end Cert.ReferenceIdeal.RefValue

end
-- ==== Proof.lean ====
/-
  The certificate of the edge model: a two-stage kernel (a node stage that computes, per node, the two halves' shares of
  the first edge layer; an edge stage that adds the shares of a pair, clips, and runs three more dense layers) against the
  plain model that concatenates the two nodes' features for every pair and runs four dense layers.

  At the ideal values both programs compute ONE function of the thirteen argument arrays (Proof/Spec.lean, `out`):
    feat(b, n)  = relu(dense_Wb(relu(dense_Wa(x[b, n, :]))))
    out(b,i,j)  = tail(termB(feat(b, i)) + termA(feat(b, j))),   tail = dense_Wo ∘ relu ∘ dense_Wcc ∘ relu ∘ dense_Wcb ∘ relu.
  The kernel side: the run with the result named (Proof/KernelRun.lean), each region from its blocks to its whole arrays
  (Proof/NodeFlush.lean, Proof/EdgeFlush.lean over the bodies read at an entry in Proof/NodeBody.lean, Proof/EdgeBody.lean),
  the arrays each region finds (Proof/Link.lean), joined in Proof/Bridge.lean. The reference side: its generated run and
  stage-by-stage reading, identified with `out` in Proof/RefValue.lean; the one law between the two arrangements is the
  splitting of the sum over the 1024 concatenated columns into its two halves and the moving of the bias (`cat_split`),
  which uses only commutativity and associativity of addition and so needs no finiteness.
  The three frames are the generated ones (the reference's is its generated run with the result dropped); the kernel's
  idealization rewrote nothing, so `preserves` is trivial.
-/
import proofs.«103301_j21406117003470_2_alg».proof.Defs
import proofs.«103301_j21406117003470_2_alg».proof.Proof.Gen.Kernel
import proofs.«103301_j21406117003470_2_alg».proof.Proof.Gen.Kernel.Skeleton
import proofs.«103301_j21406117003470_2_alg».proof.Proof.Gen.Kernel.Launch
import proofs.«103301_j21406117003470_2_alg».proof.Proof.Gen.Kernel.Points
import proofs.«103301_j21406117003470_2_alg».proof.Proof.Gen.Kernel.Frame
import proofs.«103301_j21406117003470_2_alg».proof.Proof.Gen.KernelIdeal
import proofs.«103301_j21406117003470_2_alg».proof.Proof.Gen.KernelIdeal.Skeleton
import proofs.«103301_j21406117003470_2_alg».proof.Proof.Gen.KernelIdeal.Launch
import proofs.«103301_j21406117003470_2_alg».proof.Proof.Gen.KernelIdeal.Points
import proofs.«103301_j21406117003470_2_alg».proof.Proof.Gen.KernelIdeal.Frame
import proofs.«103301_j21406117003470_2_alg».proof.Proof.Gen.ReferenceIdeal
import proofs.«103301_j21406117003470_2_alg».proof.Proof.Gen.ReferenceIdeal.Run
import proofs.«103301_j21406117003470_2_alg».proof.Proof.Gen.ReferenceIdeal.Read
import proofs.«103301_j21406117003470_2_alg».proof.Proof.Gen.Pre_finite_inputs
import proofs.«103301_j21406117003470_2_alg».proof.Proof.Bridge
import proofs.«103301_j21406117003470_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the specification of its arguments (the run with the result
    named, then `Bridge.result_eq`) and the reference's at the same specification of arguments that agree. -/
theorem algebraic : Cert.algebraic_KernelIdeal_ReferenceIdeal := by
  intro m ρ m' ρ' _ hagree
  refine ⟨fun c => Cert.EdgeSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Bridge.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, Cert.ReferenceIdeal.RefValue.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
